-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v16)) (v6 : (c : Dev Cert.KernelIdeal.nD) → Buf (Elt Ideal) ((c.tc : Thread Cert.KernelIdeal.nD Cert.KernelIdeal.τ).loc Cert.KernelIdeal.main_v19)) (v7 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v16) = v5 c
          ∧ r.2.mem ((c.tc : Thread Cert.KernelIdeal.nD Cert.KernelIdeal.τ).loc Cert.KernelIdeal.main_v19) = v6 c
          ∧ r.2.mem ((c.tc : Thread Cert.KernelIdeal.nD Cert.KernelIdeal.τ).loc Cert.KernelIdeal.main_v22) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_v15) = v4 c
          ∧ r.2.mem ((c.tc : Thread Cert.ReferenceIdeal.nD Cert.ReferenceIdeal.τ).loc Cert.ReferenceIdeal.main_v19) = v5 c
          ∧ r.2.mem ((c.tc : Thread Cert.ReferenceIdeal.nD Cert.ReferenceIdeal.τ).loc Cert.ReferenceIdeal.main_v23) = v6 c
          ∧ r.2.mem ((c.tc : Thread Cert.ReferenceIdeal.nD Cert.ReferenceIdeal.τ).loc Cert.ReferenceIdeal.main_v27) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x2048x2048x3 : Shape := ⟨4, ![6, 2048, 2048, 3]⟩
abbrev S_ : Shape := ⟨0, ![]⟩

class Facts : Prop where
  bcast_S_S6x2048x2048x3 : S_.BroadcastsInDim S6x2048x2048x3 (![] : Fin 0 → Fin S6x2048x2048x3.rank)
  reducesTo_S6x2048x2048x3_S_d0_1_2_3 : S6x2048x2048x3.ReducesTo [0, 1, 2, 3] S_
  h_S_ : 0 < S_.numel

variable [Facts]

def fn {F : FTy → Type} [FloatOps F] (main_arg0 : FVec F S6x2048x2048x3 .f32) : IVec S_ 1 :=
  let main_v0 : FVec F S6x2048x2048x3 .f32 := Host.absf main_arg0
  let main_cst : FVec F S_ .f32 := constant S_ .f32 0x7F800000#32
  let main_v1 : FVec F S6x2048x2048x3 .f32 := broadcastInDim S6x2048x2048x3 ![] bcast_S_S6x2048x2048x3 main_cst
  let main_v2 : IVec S6x2048x2048x3 1 := cmpf .olt main_v0 main_v1
  let main_c : IVec S_ 1 := constantI S_ 1 1#1
  let main_v3 : IVec S_ 1 := (fun x v => Host.reduce IntOp.andi x v reducesTo_S6x2048x2048x3_S_d0_1_2_3 h_S_) main_v2 main_c
  main_v3
-- ==== Kernel.lean ====
abbrev S6x2048x2048x3 : Shape := ⟨4, ![6, 2048, 2048, 3]⟩
abbrev S6x3x2048x2048 : Shape := ⟨4, ![6, 3, 2048, 2048]⟩
abbrev S18x2048x2048 : Shape := ⟨3, ![18, 2048, 2048]⟩
abbrev S18x1024x1024 : Shape := ⟨3, ![18, 1024, 1024]⟩
abbrev S1x1024x2048 : Shape := ⟨3, ![1, 1024, 2048]⟩
abbrev S1x512x1024 : Shape := ⟨3, ![1, 512, 1024]⟩
abbrev S1x512x2x1024x2 : Shape := ⟨5, ![1, 512, 2, 1024, 2]⟩
abbrev S6x3x1024x1024 : Shape := ⟨4, ![6, 3, 1024, 1024]⟩
abbrev S6x1024x1024x3 : Shape := ⟨4, ![6, 1024, 1024, 3]⟩
abbrev S18x512x512 : Shape := ⟨3, ![18, 512, 512]⟩
abbrev S1x1024x1024 : Shape := ⟨3, ![1, 1024, 1024]⟩
abbrev S1x512x512 : Shape := ⟨3, ![1, 512, 512]⟩
abbrev S1x512x2x512x2 : Shape := ⟨5, ![1, 512, 2, 512, 2]⟩
abbrev S6x3x512x512 : Shape := ⟨4, ![6, 3, 512, 512]⟩
abbrev S6x512x512x3 : Shape := ⟨4, ![6, 512, 512, 3]⟩
abbrev S18x256x256 : Shape := ⟨3, ![18, 256, 256]⟩
abbrev S1x256x256 : Shape := ⟨3, ![1, 256, 256]⟩
abbrev S1x256x2x256x2 : Shape := ⟨5, ![1, 256, 2, 256, 2]⟩
abbrev S6x3x256x256 : Shape := ⟨4, ![6, 3, 256, 256]⟩
abbrev S6x256x256x3 : Shape := ⟨4, ![6, 256, 256, 3]⟩
abbrev S18x128x128 : Shape := ⟨3, ![18, 128, 128]⟩
abbrev S1x128x128 : Shape := ⟨3, ![1, 128, 128]⟩
abbrev S1x128x2x128x2 : Shape := ⟨5, ![1, 128, 2, 128, 2]⟩
abbrev S6x3x128x128 : Shape := ⟨4, ![6, 3, 128, 128]⟩
abbrev S6x128x128x3 : Shape := ⟨4, ![6, 128, 128, 3]⟩
abbrev S18x64x64 : Shape := ⟨3, ![18, 64, 64]⟩
abbrev S1x64x64 : Shape := ⟨3, ![1, 64, 64]⟩
abbrev S1x64x2x64x2 : Shape := ⟨5, ![1, 64, 2, 64, 2]⟩
abbrev S6x3x64x64 : Shape := ⟨4, ![6, 3, 64, 64]⟩
abbrev S6x64x64x3 : Shape := ⟨4, ![6, 64, 64, 3]⟩
abbrev S18x32x32 : Shape := ⟨3, ![18, 32, 32]⟩
abbrev S1x32x32 : Shape := ⟨3, ![1, 32, 32]⟩
abbrev S1x32x2x32x2 : Shape := ⟨5, ![1, 32, 2, 32, 2]⟩
abbrev S6x3x32x32 : Shape := ⟨4, ![6, 3, 32, 32]⟩
abbrev S6x32x32x3 : Shape := ⟨4, ![6, 32, 32, 3]⟩
abbrev S18x16x16 : Shape := ⟨3, ![18, 16, 16]⟩
abbrev S1x16x16 : Shape := ⟨3, ![1, 16, 16]⟩
abbrev S1x16x2x16x2 : Shape := ⟨5, ![1, 16, 2, 16, 2]⟩
abbrev S6x3x16x16 : Shape := ⟨4, ![6, 3, 16, 16]⟩
abbrev S6x16x16x3 : Shape := ⟨4, ![6, 16, 16, 3]⟩

abbrev nBuf : Space → Nat
  | .hbm => 24
  | .vmem => 28
  | .smem => 0
  | _ => 0

abbrev bufTy : (tb : Table) → Fin (tcTables nBuf tb) → BufTy
  | .hbm, ⟨0, _⟩ => ⟨S6x2048x2048x3, .f32⟩
  | .hbm, ⟨1, _⟩ => ⟨S6x3x2048x2048, .f32⟩
  | .hbm, ⟨2, _⟩ => ⟨S18x2048x2048, .f32⟩
  | .hbm, ⟨3, _⟩ => ⟨S18x1024x1024, .f32⟩
  | .hbm, ⟨4, _⟩ => ⟨S6x3x1024x1024, .f32⟩
  | .hbm, ⟨5, _⟩ => ⟨S6x1024x1024x3, .f32⟩
  | .hbm, ⟨6, _⟩ => ⟨S18x512x512, .f32⟩
  | .hbm, ⟨7, _⟩ => ⟨S6x3x512x512, .f32⟩
  | .hbm, ⟨8, _⟩ => ⟨S6x512x512x3, .f32⟩
  | .hbm, ⟨9, _⟩ => ⟨S18x256x256, .f32⟩
  | .hbm, ⟨10, _⟩ => ⟨S6x3x256x256, .f32⟩
  | .hbm, ⟨11, _⟩ => ⟨S6x256x256x3, .f32⟩
  | .hbm, ⟨12, _⟩ => ⟨S18x128x128, .f32⟩
  | .hbm, ⟨13, _⟩ => ⟨S6x3x128x128, .f32⟩
  | .hbm, ⟨14, _⟩ => ⟨S6x128x128x3, .f32⟩
  | .hbm, ⟨15, _⟩ => ⟨S18x64x64, .f32⟩
  | .hbm, ⟨16, _⟩ => ⟨S6x3x64x64, .f32⟩
  | .hbm, ⟨17, _⟩ => ⟨S6x64x64x3, .f32⟩
  | .hbm, ⟨18, _⟩ => ⟨S18x32x32, .f32⟩
  | .hbm, ⟨19, _⟩ => ⟨S6x3x32x32, .f32⟩
  | .hbm, ⟨20, _⟩ => ⟨S6x32x32x3, .f32⟩
  | .hbm, ⟨21, _⟩ => ⟨S18x16x16, .f32⟩
  | .hbm, ⟨22, _⟩ => ⟨S6x3x16x16, .f32⟩
  | .hbm, ⟨23, _⟩ => ⟨S6x16x16x3, .f32⟩
  | .local _ .vmem, ⟨0, _⟩ => ⟨S1x1024x2048, .f32⟩
  | .local _ .vmem, ⟨1, _⟩ => ⟨S1x1024x2048, .f32⟩
  | .local _ .vmem, ⟨2, _⟩ => ⟨S1x512x1024, .f32⟩
  | .local _ .vmem, ⟨3, _⟩ => ⟨S1x512x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x64x64, .f32⟩
  | .local _ .vmem, ⟨19, _⟩ => ⟨S1x64x64, .f32⟩
  | .local _ .vmem, ⟨20, _⟩ => ⟨S1x64x64, .f32⟩
  | .local _ .vmem, ⟨21, _⟩ => ⟨S1x64x64, .f32⟩
  | .local _ .vmem, ⟨22, _⟩ => ⟨S1x32x32, .f32⟩
  | .local _ .vmem, ⟨23, _⟩ => ⟨S1x32x32, .f32⟩
  | .local _ .vmem, ⟨24, _⟩ => ⟨S1x32x32, .f32⟩
  | .local _ .vmem, ⟨25, _⟩ => ⟨S1x32x32, .f32⟩
  | .local _ .vmem, ⟨26, _⟩ => ⟨S1x16x16, .f32⟩
  | .local _ .vmem, ⟨27, _⟩ => ⟨S1x16x16, .f32⟩
  | _, _ => ⟨S6x2048x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc5_stg0_0 : Ref sig .tc := ⟨.vmem, 20, rfl⟩
abbrev cc5_stg0_1 : Ref sig .tc := ⟨.vmem, 21, rfl⟩
abbrev cc5_stg1_0 : Ref sig .tc := ⟨.vmem, 22, rfl⟩
abbrev cc5_stg1_1 : Ref sig .tc := ⟨.vmem, 23, rfl⟩
abbrev cc6_stg0_0 : Ref sig .tc := ⟨.vmem, 24, rfl⟩
abbrev cc6_stg0_1 : Ref sig .tc := ⟨.vmem, 25, rfl⟩
abbrev cc6_stg1_0 : Ref sig .tc := ⟨.vmem, 26, rfl⟩
abbrev cc6_stg1_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc5_sem0_0 : DmaSem sig := 20
abbrev cc5_sem0_1 : DmaSem sig := 21
abbrev cc5_sem1_0 : DmaSem sig := 22
abbrev cc5_sem1_1 : DmaSem sig := 23
abbrev cc6_sem0_0 : DmaSem sig := 24
abbrev cc6_sem0_1 : DmaSem sig := 25
abbrev cc6_sem1_0 : DmaSem sig := 26
abbrev cc6_sem1_1 : DmaSem sig := 27

abbrev nD : Nat := 1
abbrev τ : Topo := Topo.v7x

variable {F : FTy → Type} [FloatOps F]

abbrev grid0 : Pipeline.Grid := ⟨2, ![18, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![18, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![18, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![18, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev grid4 : Pipeline.Grid := ⟨2, ![18, 1], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x64x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev grid5 : Pipeline.Grid := ⟨2, ![18, 1], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x64x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x32x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev grid6 : Pipeline.Grid := ⟨2, ![18, 1], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x32x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S1x16x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

class Facts₀ : Prop where
  transposes_S6x2048x2048x3_S6x3x2048x2048_0_3_1_2 : S6x2048x2048x3.Transposes [0, 3, 1, 2] S6x3x2048x2048
  shapeCasts_S6x3x2048x2048_S18x2048x2048 : S6x3x2048x2048.ShapeCasts S18x2048x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1x1024x2048 : S1x1024x2048.ShapeCasts S1x1024x2048
  shapeCasts_S1x1024x2048_S1x512x2x1024x2 : S1x1024x2048.ShapeCasts S1x512x2x1024x2
  reduces_S1x512x2x1024x2_S1x512x1024 : S1x512x2x1024x2.Reduces [2, 4] S1x512x1024
  inb_S1x512x1024_S1x512x1024_0_0_0 : ∀ a, (![0, 0, 0] : Fin 3 → Nat) a + S1x512x1024.size a ≤ S1x512x1024.size a
  h_S1x512x1024 : 0 < S1x512x1024.numel
  shapeCasts_S18x1024x1024_S6x3x1024x1024 : S18x1024x1024.ShapeCasts S6x3x1024x1024
  transposes_S6x3x1024x1024_S6x1024x1024x3_0_2_3_1 : S6x3x1024x1024.Transposes [0, 2, 3, 1] S6x1024x1024x3
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  shapeCasts_S1x1024x1024_S1x512x2x512x2 : S1x1024x1024.ShapeCasts S1x512x2x512x2
  reduces_S1x512x2x512x2_S1x512x512 : S1x512x2x512x2.Reduces [2, 4] S1x512x512
  inb_S1x512x512_S1x512x512_0_0_0 : ∀ a, (![0, 0, 0] : Fin 3 → Nat) a + S1x512x512.size a ≤ S1x512x512.size a
  h_S1x512x512 : 0 < S1x512x512.numel
  shapeCasts_S18x512x512_S6x3x512x512 : S18x512x512.ShapeCasts S6x3x512x512
  transposes_S6x3x512x512_S6x512x512x3_0_2_3_1 : S6x3x512x512.Transposes [0, 2, 3, 1] S6x512x512x3
  shapeCasts_S1x512x512_S1x512x512 : S1x512x512.ShapeCasts S1x512x512
  shapeCasts_S1x512x512_S1x256x2x256x2 : S1x512x512.ShapeCasts S1x256x2x256x2
  reduces_S1x256x2x256x2_S1x256x256 : S1x256x2x256x2.Reduces [2, 4] S1x256x256
  inb_S1x256x256_S1x256x256_0_0_0 : ∀ a, (![0, 0, 0] : Fin 3 → Nat) a + S1x256x256.size a ≤ S1x256x256.size a
  h_S1x256x256 : 0 < S1x256x256.numel
  shapeCasts_S18x256x256_S6x3x256x256 : S18x256x256.ShapeCasts S6x3x256x256
  transposes_S6x3x256x256_S6x256x256x3_0_2_3_1 : S6x3x256x256.Transposes [0, 2, 3, 1] S6x256x256x3
  shapeCasts_S1x256x256_S1x256x256 : S1x256x256.ShapeCasts S1x256x256
  shapeCasts_S1x256x256_S1x128x2x128x2 : S1x256x256.ShapeCasts S1x128x2x128x2
  reduces_S1x128x2x128x2_S1x128x128 : S1x128x2x128x2.Reduces [2, 4] S1x128x128
  inb_S1x128x128_S1x128x128_0_0_0 : ∀ a, (![0, 0, 0] : Fin 3 → Nat) a + S1x128x128.size a ≤ S1x128x128.size a
  h_S1x128x128 : 0 < S1x128x128.numel
  shapeCasts_S18x128x128_S6x3x128x128 : S18x128x128.ShapeCasts S6x3x128x128
  transposes_S6x3x128x128_S6x128x128x3_0_2_3_1 : S6x3x128x128.Transposes [0, 2, 3, 1] S6x128x128x3
  shapeCasts_S1x128x128_S1x128x128 : S1x128x128.ShapeCasts S1x128x128
  shapeCasts_S1x128x128_S1x64x2x64x2 : S1x128x128.ShapeCasts S1x64x2x64x2
  reduces_S1x64x2x64x2_S1x64x64 : S1x64x2x64x2.Reduces [2, 4] S1x64x64
  inb_S1x64x64_S1x64x64_0_0_0 : ∀ a, (![0, 0, 0] : Fin 3 → Nat) a + S1x64x64.size a ≤ S1x64x64.size a
  h_S1x64x64 : 0 < S1x64x64.numel
  shapeCasts_S18x64x64_S6x3x64x64 : S18x64x64.ShapeCasts S6x3x64x64
  transposes_S6x3x64x64_S6x64x64x3_0_2_3_1 : S6x3x64x64.Transposes [0, 2, 3, 1] S6x64x64x3
  shapeCasts_S1x64x64_S1x64x64 : S1x64x64.ShapeCasts S1x64x64
  shapeCasts_S1x64x64_S1x32x2x32x2 : S1x64x64.ShapeCasts S1x32x2x32x2
  reduces_S1x32x2x32x2_S1x32x32 : S1x32x2x32x2.Reduces [2, 4] S1x32x32
  inb_S1x32x32_S1x32x32_0_0_0 : ∀ a, (![0, 0, 0] : Fin 3 → Nat) a + S1x32x32.size a ≤ S1x32x32.size a
  h_S1x32x32 : 0 < S1x32x32.numel
  shapeCasts_S18x32x32_S6x3x32x32 : S18x32x32.ShapeCasts S6x3x32x32
  transposes_S6x3x32x32_S6x32x32x3_0_2_3_1 : S6x3x32x32.Transposes [0, 2, 3, 1] S6x32x32x3
  shapeCasts_S1x32x32_S1x32x32 : S1x32x32.ShapeCasts S1x32x32
  shapeCasts_S1x32x32_S1x16x2x16x2 : S1x32x32.ShapeCasts S1x16x2x16x2
  reduces_S1x16x2x16x2_S1x16x16 : S1x16x2x16x2.Reduces [2, 4] S1x16x16
  inb_S1x16x16_S1x16x16_0_0_0 : ∀ a, (![0, 0, 0] : Fin 3 → Nat) a + S1x16x16.size a ≤ S1x16x16.size a
  h_S1x16x16 : 0 < S1x16x16.numel
  shapeCasts_S18x16x16_S6x3x16x16 : S18x16x16.ShapeCasts S6x3x16x16
  transposes_S6x3x16x16_S6x16x16x3_0_2_3_1 : S6x3x16x16.Transposes [0, 2, 3, 1] S6x16x16x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S18x2048x2048.size a
  hwx0_0 : ∀ i : grid0.Coords, EltTy.bits .f32 = 32 ∨ (Rect.block (s := S18x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S18x1024x1024.size a
  hwx0_1 : ∀ i : grid0.Coords, EltTy.bits .f32 = 32 ∨ (Rect.block (s := S18x1024x1024) S1x512x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S18x1024x1024.size a
  hwx1_0 : ∀ i : grid1.Coords, EltTy.bits .f32 = 32 ∨ (Rect.block (s := S18x1024x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S18x512x512.size a
  hwx1_1 : ∀ i : grid1.Coords, EltTy.bits .f32 = 32 ∨ (Rect.block (s := S18x512x512) S1x512x512.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x512.size a ≤ S18x512x512.size a
  hwx2_0 : ∀ i : grid2.Coords, EltTy.bits .f32 = 32 ∨ (Rect.block (s := S18x512x512) S1x512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x256.size a ≤ S18x256x256.size a
  hwx2_1 : ∀ i : grid2.Coords, EltTy.bits .f32 = 32 ∨ (Rect.block (s := S18x256x256) S1x256x256.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x256.size a ≤ S18x256x256.size a
  hwx3_0 : ∀ i : grid3.Coords, EltTy.bits .f32 = 32 ∨ (Rect.block (s := S18x256x256) S1x256x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x128x128.size a ≤ S18x128x128.size a
  hwx3_1 : ∀ i : grid3.Coords, EltTy.bits .f32 = 32 ∨ (Rect.block (s := S18x128x128) S1x128x128.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x128x128.size a ≤ S18x128x128.size a
  hwx4_0 : ∀ i : grid4.Coords, EltTy.bits .f32 = 32 ∨ (Rect.block (s := S18x128x128) S1x128x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x64x64.size a ≤ S18x64x64.size a
  hwx4_1 : ∀ i : grid4.Coords, EltTy.bits .f32 = 32 ∨ (Rect.block (s := S18x64x64) S1x64x64.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x64x64.size a ≤ S18x64x64.size a
  hwx5_0 : ∀ i : grid5.Coords, EltTy.bits .f32 = 32 ∨ (Rect.block (s := S18x64x64) S1x64x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x32x32.size a ≤ S18x32x32.size a
  hwx5_1 : ∀ i : grid5.Coords, EltTy.bits .f32 = 32 ∨ (Rect.block (s := S18x32x32) S1x32x32.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x32x32.size a ≤ S18x32x32.size a
  hwx6_0 : ∀ i : grid6.Coords, EltTy.bits .f32 = 32 ∨ (Rect.block (s := S18x32x32) S1x32x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x16x16.size a ≤ S18x16x16.size a
  hwx6_1 : ∀ i : grid6.Coords, EltTy.bits .f32 = 32 ∨ (Rect.block (s := S18x16x16) S1x16x16.size (cc6_transform_1 i) (hinb6_1 i)).WholeWords (EltTy.packing .f32)

variable [Facts₀]

abbrev win0_0 : Pipeline.Window sig grid0 :=
  Pipeline.Window.ofSpec (Memref.whole main_v1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v5) S1x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x256x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v8) S1x256x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S1x128x128.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v11) S1x128x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S1x64x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v14) S1x64x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S1x32x32.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v17) S1x32x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v20) S1x16x16.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S6x2048x2048x3 : Shape := ⟨4, ![6, 2048, 2048, 3]⟩
abbrev S6x1024x2x1024x2x3 : Shape := ⟨6, ![6, 1024, 2, 1024, 2, 3]⟩
abbrev S_ : Shape := ⟨0, ![]⟩
abbrev S6x1024x1024x3 : Shape := ⟨4, ![6, 1024, 1024, 3]⟩
abbrev S6x512x2x512x2x3 : Shape := ⟨6, ![6, 512, 2, 512, 2, 3]⟩
abbrev S6x512x512x3 : Shape := ⟨4, ![6, 512, 512, 3]⟩
abbrev S6x256x2x256x2x3 : Shape := ⟨6, ![6, 256, 2, 256, 2, 3]⟩
abbrev S6x256x256x3 : Shape := ⟨4, ![6, 256, 256, 3]⟩
abbrev S6x128x2x128x2x3 : Shape := ⟨6, ![6, 128, 2, 128, 2, 3]⟩
abbrev S6x128x128x3 : Shape := ⟨4, ![6, 128, 128, 3]⟩
abbrev S6x64x2x64x2x3 : Shape := ⟨6, ![6, 64, 2, 64, 2, 3]⟩
abbrev S6x64x64x3 : Shape := ⟨4, ![6, 64, 64, 3]⟩
abbrev S6x32x2x32x2x3 : Shape := ⟨6, ![6, 32, 2, 32, 2, 3]⟩
abbrev S6x32x32x3 : Shape := ⟨4, ![6, 32, 32, 3]⟩
abbrev S6x16x2x16x2x3 : Shape := ⟨6, ![6, 16, 2, 16, 2, 3]⟩
abbrev S6x16x16x3 : Shape := ⟨4, ![6, 16, 16, 3]⟩

abbrev nBuf : Space → Nat
  | .hbm => 43
  | .vmem => 0
  | .smem => 0
  | _ => 0

abbrev bufTy : (tb : Table) → Fin (tcTables nBuf tb) → BufTy
  | .hbm, ⟨0, _⟩ => ⟨S6x2048x2048x3, .f32⟩
  | .hbm, ⟨1, _⟩ => ⟨S6x1024x2x1024x2x3, .f32⟩
  | .hbm, ⟨2, _⟩ => ⟨S_, .f32⟩
  | .hbm, ⟨3, _⟩ => ⟨S6x1024x1024x3, .f32⟩
  | .hbm, ⟨4, _⟩ => ⟨S_, .f32⟩
  | .hbm, ⟨5, _⟩ => ⟨S6x1024x1024x3, .f32⟩
  | .hbm, ⟨6, _⟩ => ⟨S6x1024x1024x3, .f32⟩
  | .hbm, ⟨7, _⟩ => ⟨S6x512x2x512x2x3, .f32⟩
  | .hbm, ⟨8, _⟩ => ⟨S_, .f32⟩
  | .hbm, ⟨9, _⟩ => ⟨S6x512x512x3, .f32⟩
  | .hbm, ⟨10, _⟩ => ⟨S_, .f32⟩
  | .hbm, ⟨11, _⟩ => ⟨S6x512x512x3, .f32⟩
  | .hbm, ⟨12, _⟩ => ⟨S6x512x512x3, .f32⟩
  | .hbm, ⟨13, _⟩ => ⟨S6x256x2x256x2x3, .f32⟩
  | .hbm, ⟨14, _⟩ => ⟨S_, .f32⟩
  | .hbm, ⟨15, _⟩ => ⟨S6x256x256x3, .f32⟩
  | .hbm, ⟨16, _⟩ => ⟨S_, .f32⟩
  | .hbm, ⟨17, _⟩ => ⟨S6x256x256x3, .f32⟩
  | .hbm, ⟨18, _⟩ => ⟨S6x256x256x3, .f32⟩
  | .hbm, ⟨19, _⟩ => ⟨S6x128x2x128x2x3, .f32⟩
  | .hbm, ⟨20, _⟩ => ⟨S_, .f32⟩
  | .hbm, ⟨21, _⟩ => ⟨S6x128x128x3, .f32⟩
  | .hbm, ⟨22, _⟩ => ⟨S_, .f32⟩
  | .hbm, ⟨23, _⟩ => ⟨S6x128x128x3, .f32⟩
  | .hbm, ⟨24, _⟩ => ⟨S6x128x128x3, .f32⟩
  | .hbm, ⟨25, _⟩ => ⟨S6x64x2x64x2x3, .f32⟩
  | .hbm, ⟨26, _⟩ => ⟨S_, .f32⟩
  | .hbm, ⟨27, _⟩ => ⟨S6x64x64x3, .f32⟩
  | .hbm, ⟨28, _⟩ => ⟨S_, .f32⟩
  | .hbm, ⟨29, _⟩ => ⟨S6x64x64x3, .f32⟩
  | .hbm, ⟨30, _⟩ => ⟨S6x64x64x3, .f32⟩
  | .hbm, ⟨31, _⟩ => ⟨S6x32x2x32x2x3, .f32⟩
  | .hbm, ⟨32, _⟩ => ⟨S_, .f32⟩
  | .hbm, ⟨33, _⟩ => ⟨S6x32x32x3, .f32⟩
  | .hbm, ⟨34, _⟩ => ⟨S_, .f32⟩
  | .hbm, ⟨35, _⟩ => ⟨S6x32x32x3, .f32⟩
  | .hbm, ⟨36, _⟩ => ⟨S6x32x32x3, .f32⟩
  | .hbm, ⟨37, _⟩ => ⟨S6x16x2x16x2x3, .f32⟩
  | .hbm, ⟨38, _⟩ => ⟨S_, .f32⟩
  | .hbm, ⟨39, _⟩ => ⟨S6x16x16x3, .f32⟩
  | .hbm, ⟨40, _⟩ => ⟨S_, .f32⟩
  | .hbm, ⟨41, _⟩ => ⟨S6x16x16x3, .f32⟩
  | .hbm, ⟨42, _⟩ => ⟨S6x16x16x3, .f32⟩
  | _, _ => ⟨S6x2048x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_5 : Ref sig .tc := ⟨.hbm, 20, rfl⟩
abbrev main_v13 : Ref sig .tc := ⟨.hbm, 21, rfl⟩
abbrev main_cst_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_7 : Ref sig .tc := ⟨.hbm, 26, rfl⟩
abbrev main_v17 : Ref sig .tc := ⟨.hbm, 27, rfl⟩
abbrev main_cst_8 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_9 : Ref sig .tc := ⟨.hbm, 32, rfl⟩
abbrev main_v21 : Ref sig .tc := ⟨.hbm, 33, rfl⟩
abbrev main_cst_10 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_11 : Ref sig .tc := ⟨.hbm, 38, rfl⟩
abbrev main_v25 : Ref sig .tc := ⟨.hbm, 39, rfl⟩
abbrev main_cst_12 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  shapeCasts_S6x2048x2048x3_S6x1024x2x1024x2x3 : S6x2048x2048x3.ShapeCasts S6x1024x2x1024x2x3
  reducesTo_S6x1024x2x1024x2x3_S6x1024x1024x3_d2_4 : S6x1024x2x1024x2x3.ReducesTo [2, 4] S6x1024x1024x3
  h_S_ : 0 < S_.numel
  bcast_S_S6x1024x1024x3 : S_.BroadcastsInDim S6x1024x1024x3 (![] : Fin 0 → Fin S6x1024x1024x3.rank)
  shapeCasts_S6x1024x1024x3_S6x512x2x512x2x3 : S6x1024x1024x3.ShapeCasts S6x512x2x512x2x3
  reducesTo_S6x512x2x512x2x3_S6x512x512x3_d2_4 : S6x512x2x512x2x3.ReducesTo [2, 4] S6x512x512x3
  bcast_S_S6x512x512x3 : S_.BroadcastsInDim S6x512x512x3 (![] : Fin 0 → Fin S6x512x512x3.rank)
  shapeCasts_S6x512x512x3_S6x256x2x256x2x3 : S6x512x512x3.ShapeCasts S6x256x2x256x2x3
  reducesTo_S6x256x2x256x2x3_S6x256x256x3_d2_4 : S6x256x2x256x2x3.ReducesTo [2, 4] S6x256x256x3
  bcast_S_S6x256x256x3 : S_.BroadcastsInDim S6x256x256x3 (![] : Fin 0 → Fin S6x256x256x3.rank)
  shapeCasts_S6x256x256x3_S6x128x2x128x2x3 : S6x256x256x3.ShapeCasts S6x128x2x128x2x3
  reducesTo_S6x128x2x128x2x3_S6x128x128x3_d2_4 : S6x128x2x128x2x3.ReducesTo [2, 4] S6x128x128x3
  bcast_S_S6x128x128x3 : S_.BroadcastsInDim S6x128x128x3 (![] : Fin 0 → Fin S6x128x128x3.rank)
  shapeCasts_S6x128x128x3_S6x64x2x64x2x3 : S6x128x128x3.ShapeCasts S6x64x2x64x2x3
  reducesTo_S6x64x2x64x2x3_S6x64x64x3_d2_4 : S6x64x2x64x2x3.ReducesTo [2, 4] S6x64x64x3
  bcast_S_S6x64x64x3 : S_.BroadcastsInDim S6x64x64x3 (![] : Fin 0 → Fin S6x64x64x3.rank)
  shapeCasts_S6x64x64x3_S6x32x2x32x2x3 : S6x64x64x3.ShapeCasts S6x32x2x32x2x3
  reducesTo_S6x32x2x32x2x3_S6x32x32x3_d2_4 : S6x32x2x32x2x3.ReducesTo [2, 4] S6x32x32x3
  bcast_S_S6x32x32x3 : S_.BroadcastsInDim S6x32x32x3 (![] : Fin 0 → Fin S6x32x32x3.rank)
  shapeCasts_S6x32x32x3_S6x16x2x16x2x3 : S6x32x32x3.ShapeCasts S6x16x2x16x2x3
  reducesTo_S6x16x2x16x2x3_S6x16x16x3_d2_4 : S6x16x2x16x2x3.ReducesTo [2, 4] S6x16x16x3
  bcast_S_S6x16x16x3 : S_.BroadcastsInDim S6x16x16x3 (![] : Fin 0 → Fin S6x16x16x3.rank)

variable [Facts₀]

class Facts : Prop extends Facts₀ where

variable [Facts]
-- ==== Proof.Pool.lean ====
import Idealize.ShloMosaic.Lib.Pipeline.Value
import Idealize.ShloMosaic.Lib.ValueIdx
import Idealize.ShloMosaic.Lib.ValueIdxRank6
import Idealize.ShloMosaic.Lib.IdealHost
import Idealize.ShloMosaic.PureOps.Ideal.Laws

noncomputable section

/-! # Averaging 2 x 2 windows, in two layouts

One level of a mip chain replaces each 2 x 2 window of rows and columns by its average: the sum of its four entries divided by four, on
the extended reals. Here: that average on a channel-major array [B, H, W] and on a channel-last array [B, H, W, C]; that the two programs'
spellings of one level (regroup the rows and columns in pairs, sum over the two pair axes, divide by the literal 4.0) are that average; and
that the average commutes with the change between the two layouts. Only re-indexing of finite sums is used: nothing is assumed finite. -/

namespace Cert.Pool

open Idealize.ShloMosaic Idealize.ShloMosaic.ValueIdx

/-- The divisor of an average over a 2 x 2 window, as the programs write it. -/
abbrev four : EReal := Ideal.ofBits .f32 0x40800000#32

/-! ## Averaging 2 x 2 windows of a channel-major array -/

/-- The entry of the finer array that position `k` of the window of entry `j` reads: same leading coordinate,
    row `2 * row + k.1`, column `2 * column + k.2`. -/
def upCM {B N M n m : Nat} (hN : N = 2 * n) (hM : M = 2 * m) (j : (⟨3, ![B, n, m]⟩ : Shape).Idx) (k : Fin 2 × Fin 2) :
    (⟨3, ![B, N, M]⟩ : Shape).Idx :=
  ix3 (⟨(j 0).val, (j 0).isLt⟩ : Fin B) (⟨2 * (j 1).val + k.1.val, by have hj : (j 1).val < n := (j 1).isLt; have hk := k.1.isLt; omega⟩ : Fin N)
    (⟨2 * (j 2).val + k.2.val, by have hj : (j 2).val < m := (j 2).isLt; have hk := k.2.isLt; omega⟩ : Fin M)

/-- The average of each 2 x 2 window of rows and columns: the window's sum divided by four. -/
def poolCM {B N M n m : Nat} (hN : N = 2 * n) (hM : M = 2 * m) (X : (⟨3, ![B, N, M]⟩ : Shape).Idx → EReal) :
    (⟨3, ![B, n, m]⟩ : Shape).Idx → EReal :=
  fun j => Ideal.div (∑ k : Fin 2 × Fin 2, X (upCM hN hM j k)) four

/-! ## The same on a channel-last array -/

def upCL {B N M C n m : Nat} (hN : N = 2 * n) (hM : M = 2 * m) (j : (⟨4, ![B, n, m, C]⟩ : Shape).Idx) (k : Fin 2 × Fin 2) :
    (⟨4, ![B, N, M, C]⟩ : Shape).Idx :=
  ix4 (⟨(j 0).val, (j 0).isLt⟩ : Fin B) (⟨2 * (j 1).val + k.1.val, by have hj : (j 1).val < n := (j 1).isLt; have hk := k.1.isLt; omega⟩ : Fin N)
    (⟨2 * (j 2).val + k.2.val, by have hj : (j 2).val < m := (j 2).isLt; have hk := k.2.isLt; omega⟩ : Fin M) (⟨(j 3).val, (j 3).isLt⟩ : Fin C)

def poolCL {B N M C n m : Nat} (hN : N = 2 * n) (hM : M = 2 * m) (Y : (⟨4, ![B, N, M, C]⟩ : Shape).Idx → EReal) :
    (⟨4, ![B, n, m, C]⟩ : Shape).Idx → EReal :=
  fun j => Ideal.div (∑ k : Fin 2 × Fin 2, Y (upCL hN hM j k)) four

/-! ## Re-indexing a sum over a fibre -/

/-- A sum over the fibre of `drop` above `j` is the sum over any index set that enumerates that fibre without repetition. -/
theorem sum_fiber {α β K : Type} [Fintype α] [Fintype K] (drop : α → β) (j : β) [DecidablePred fun i => drop i = j]
    (x : α → EReal) (ι : K → α) (hinj : Function.Injective ι) (hmem : ∀ k, drop (ι k) = j)
    (hsurj : ∀ i, drop i = j → ∃ k, ι k = i) :
    ∑ i ∈ Finset.univ.filter (fun i => drop i = j), x i = ∑ k : K, x (ι k) := by
  symm
  refine Finset.sum_bij (fun k _ => ι k) ?_ ?_ ?_ ?_
  · intro k _; exact Finset.mem_filter.2 ⟨Finset.mem_univ _, hmem k⟩
  · intro a _ b _ h; exact hinj h
  · intro i hi; obtain ⟨k, hk⟩ := hsurj i (Finset.mem_filter.1 hi).2; exact ⟨k, Finset.mem_univ _, hk⟩
  · intro k _; rfl

/-! ## The two programs' spellings of one level -/

/-- The kernel body's value: the block regrouped as rows x 2 x columns x 2, summed over the two window axes, divided by four. -/
theorem kernel_payload {N M n m : Nat} (hN : N = 2 * n) (hM : M = 2 * m) (x : FVec Ideal ⟨3, ![1, N, M]⟩ .f32)
    (h1 : (⟨3, ![1, N, M]⟩ : Shape).ShapeCasts ⟨3, ![1, N, M]⟩) (h2 : (⟨3, ![1, N, M]⟩ : Shape).ShapeCasts ⟨5, ![1, n, 2, m, 2]⟩)
    (hr : (⟨5, ![1, n, 2, m, 2]⟩ : Shape).Reduces [2, 4] ⟨3, ![1, n, m]⟩) (hφ : FKind.Formats .f32)
    (hacc : (0x00000000#32 : BitVec 32) = FKind.add.neutral .f32 hφ) :
    divf (multiReduction .add [2, 4] ⟨3, ![1, n, m]⟩ (shapeCast ⟨5, ![1, n, 2, m, 2]⟩ (shapeCast ⟨3, ![1, N, M]⟩ x h1) h2) 0x00000000#32 hr hφ hacc)
        (broadcast ⟨3, ![1, n, m]⟩ (Scalar.ofBits (F := Ideal) .f32 0x40800000#32))
      = poolCM hN hM x := by
  subst hN hM
  funext j
  obtain ⟨b, i, j', rfl⟩ : ∃ (b : Fin 1) (i : Fin n) (j' : Fin m), j = ix3 b i j' := ⟨j 0, j 1, j 2, eq_ix3 j⟩
  show Ideal.div (Ideal.reduceAdd hr (shapeCast ⟨5, ![1, n, 2, m, 2]⟩ (shapeCast ⟨3, ![1, 2 * n, 2 * m]⟩ x h1) h2) (ix3 b i j')) four
    = Ideal.div (∑ k : Fin 2 × Fin 2, x (upCM rfl rfl (ix3 b i j') k)) four
  congr 1
  unfold Ideal.reduceAdd
  rw [sum_fiber hr.drop (ix3 b i j') _ (fun k : Fin 2 × Fin 2 => ix5 (0 : Fin 1) i k.1 j' k.2)]
  · refine Finset.sum_congr rfl fun k _ => ?_
    refine (shapeCast_apply _ h2 _ (upCM rfl rfl (ix3 b i j') k) ?_).trans (shapeCast_apply x h1 _ _ rfl)
    rw [Shape.rowMajor_val_three, Shape.rowMajor_val_five]
    show (b.val * (2 * n) + (2 * i.val + k.1.val)) * (2 * m) + (2 * j'.val + k.2.val)
      = (((0 * n + i.val) * 2 + k.1.val) * m + j'.val) * 2 + k.2.val
    have hb : b.val = 0 := by have := b.isLt; omega
    rw [hb]
    ring
  · intro k k' h
    exact Prod.ext (congrFun h (2 : Fin 5)) (congrFun h (4 : Fin 5))
  · intro k
    funext d
    match d with
    | ⟨0, _⟩ => exact Subsingleton.elim (α := Fin 1) _ _
    | ⟨1, _⟩ => exact Fin.ext rfl
    | ⟨2, _⟩ => exact Fin.ext rfl
  · intro u hu
    refine ⟨(u 2, u 4), ?_⟩
    have h1' : (u 1).val = i.val := congrArg Fin.val (congrFun hu (1 : Fin 3))
    have h3' : (u 3).val = j'.val := congrArg Fin.val (congrFun hu (2 : Fin 3))
    funext d
    match d with
    | ⟨0, _⟩ => exact Subsingleton.elim (α := Fin 1) _ _
    | ⟨1, _⟩ => exact Fin.ext h1'.symm
    | ⟨2, _⟩ => rfl
    | ⟨3, _⟩ => exact Fin.ext h3'.symm
    | ⟨4, _⟩ => rfl

/-- The reference's stage: the array regrouped as faces x rows x 2 x columns x 2 x channels, summed from zero over the two window
    axes, divided by four. -/
theorem reference_stage {N M n m : Nat} (hN : N = 2 * n) (hM : M = 2 * m) (y : FVec Ideal ⟨4, ![6, N, M, 3]⟩ .f32)
    (h2 : (⟨4, ![6, N, M, 3]⟩ : Shape).ShapeCasts ⟨6, ![6, n, 2, m, 2, 3]⟩)
    (hr : (⟨6, ![6, n, 2, m, 2, 3]⟩ : Shape).ReducesTo [2, 4] ⟨4, ![6, n, m, 3]⟩) (hu : 0 < (⟨0, ![]⟩ : Shape).numel)
    (hb : (⟨0, ![]⟩ : Shape).BroadcastsInDim ⟨4, ![6, n, m, 3]⟩ ![]) :
    Host.divf (Host.reduceAdd (shapeCast ⟨6, ![6, n, 2, m, 2, 3]⟩ y h2) (constant (F := Ideal) ⟨0, ![]⟩ .f32 0x00000000#32) hr hu)
        (broadcastInDim ⟨4, ![6, n, m, 3]⟩ ![] hb (constant (F := Ideal) ⟨0, ![]⟩ .f32 0x40800000#32))
      = poolCL hN hM y := by
  subst hN hM
  funext j
  obtain ⟨f, i, j', c, rfl⟩ : ∃ (f : Fin 6) (i : Fin n) (j' : Fin m) (c : Fin 3), j = ix4 f i j' c :=
    ⟨j 0, j 1, j 2, j 3, eq_ix4 j⟩
  show Ideal.div (Ideal.hostReduceAdd hr (shapeCast ⟨6, ![6, n, 2, m, 2, 3]⟩ y h2) (Ideal.ofBits .f32 0x00000000#32) (ix4 f i j' c))
      (broadcastInDim ⟨4, ![6, n, m, 3]⟩ ![] hb (constant (F := Ideal) ⟨0, ![]⟩ .f32 0x40800000#32) (ix4 f i j' c))
    = Ideal.div (∑ k : Fin 2 × Fin 2, y (upCL rfl rfl (ix4 f i j' c) k)) four
  rw [broadcastInDim_scalar_apply, constant_apply, Ideal.ofBits_zero_f32]
  congr 1
  unfold Ideal.hostReduceAdd
  rw [zero_add, sum_fiber hr.drop (ix4 f i j' c) _ (fun k : Fin 2 × Fin 2 => ix6 f i k.1 j' k.2 c)]
  · refine Finset.sum_congr rfl fun k _ => ?_
    refine shapeCast_apply y h2 _ (upCL rfl rfl (ix4 f i j' c) k) ?_
    rw [Shape.rowMajor_val_four, Shape.rowMajor_val_six]
    show ((f.val * (2 * n) + (2 * i.val + k.1.val)) * (2 * m) + (2 * j'.val + k.2.val)) * 3 + c.val
      = ((((f.val * n + i.val) * 2 + k.1.val) * m + j'.val) * 2 + k.2.val) * 3 + c.val
    ring
  · intro k k' h
    exact Prod.ext (congrFun h (2 : Fin 6)) (congrFun h (4 : Fin 6))
  · intro k
    funext d
    match d with
    | ⟨0, _⟩ => exact Fin.ext rfl
    | ⟨1, _⟩ => exact Fin.ext rfl
    | ⟨2, _⟩ => exact Fin.ext rfl
    | ⟨3, _⟩ => exact Fin.ext rfl
  · intro u hu
    refine ⟨(u 2, u 4), ?_⟩
    have h0' : (u 0).val = f.val := congrArg Fin.val (congrFun hu (0 : Fin 4))
    have h1' : (u 1).val = i.val := congrArg Fin.val (congrFun hu (1 : Fin 4))
    have h3' : (u 3).val = j'.val := congrArg Fin.val (congrFun hu (2 : Fin 4))
    have h5' : (u 5).val = c.val := congrArg Fin.val (congrFun hu (3 : Fin 4))
    funext d
    match d with
    | ⟨0, _⟩ => exact Fin.ext h0'.symm
    | ⟨1, _⟩ => exact Fin.ext h1'.symm
    | ⟨2, _⟩ => rfl
    | ⟨3, _⟩ => exact Fin.ext h3'.symm
    | ⟨4, _⟩ => rfl
    | ⟨5, _⟩ => exact Fin.ext h5'.symm

/-! ## Between the two layouts -/

/-- A channel-major array (face and channel merged in the leading axis, `3 * face + channel`) read channel-last. -/
def toCL {n m : Nat} (X : (⟨3, ![18, n, m]⟩ : Shape).Idx → EReal) (hs : (⟨3, ![18, n, m]⟩ : Shape).ShapeCasts ⟨4, ![6, 3, n, m]⟩)
    (ht : (⟨4, ![6, 3, n, m]⟩ : Shape).Transposes [0, 2, 3, 1] ⟨4, ![6, n, m, 3]⟩) : (⟨4, ![6, n, m, 3]⟩ : Shape).Idx → EReal :=
  transpose ⟨4, ![6, n, m, 3]⟩ [0, 2, 3, 1] (shapeCast ⟨4, ![6, 3, n, m]⟩ X hs) ht

/-- A channel-last array read channel-major. -/
def toCM {n m : Nat} (Y : (⟨4, ![6, n, m, 3]⟩ : Shape).Idx → EReal) (ht : (⟨4, ![6, n, m, 3]⟩ : Shape).Transposes [0, 3, 1, 2] ⟨4, ![6, 3, n, m]⟩)
    (hs : (⟨4, ![6, 3, n, m]⟩ : Shape).ShapeCasts ⟨3, ![18, n, m]⟩) : (⟨3, ![18, n, m]⟩ : Shape).Idx → EReal :=
  shapeCast ⟨3, ![18, n, m]⟩ (transpose ⟨4, ![6, 3, n, m]⟩ [0, 3, 1, 2] Y ht) hs

/-- The channel-last reading at (face, row, column, channel) is the channel-major array at leading index `3 * face + channel`. -/
theorem toCL_apply {n m : Nat} (X : (⟨3, ![18, n, m]⟩ : Shape).Idx → EReal) (hs) (ht) (f : Fin 6) (i : Fin n) (j : Fin m) (c : Fin 3) :
    toCL X hs ht (ix4 f i j c)
      = X (ix3 (⟨3 * f.val + c.val, by have := f.isLt; have := c.isLt; omega⟩ : Fin 18) i j) := by
  unfold toCL
  refine (transpose_apply _ _ ht _ (ix4 f c i j) ?_).trans (shapeCast_apply X hs _ _ ?_)
  · intro b
    match b with
    | ⟨0, _⟩ => rfl
    | ⟨1, _⟩ => rfl
    | ⟨2, _⟩ => rfl
    | ⟨3, _⟩ => rfl
  · rw [Shape.rowMajor_val_three, Shape.rowMajor_val_four]
    show ((3 * f.val + c.val) * n + i.val) * m + j.val = ((f.val * 3 + c.val) * n + i.val) * m + j.val
    ring

/-- The channel-major reading at leading index `3 * face + channel` is the channel-last array at (face, row, column, channel). -/
theorem toCM_apply {n m : Nat} (Y : (⟨4, ![6, n, m, 3]⟩ : Shape).Idx → EReal) (ht) (hs) (f : Fin 6) (i : Fin n) (j : Fin m) (c : Fin 3) :
    toCM Y ht hs (ix3 (⟨3 * f.val + c.val, by have := f.isLt; have := c.isLt; omega⟩ : Fin 18) i j)
      = Y (ix4 f i j c) := by
  unfold toCM
  refine (shapeCast_apply _ hs _ (ix4 f c i j) ?_).trans (transpose_apply _ Y ht _ (ix4 f i j c) ?_)
  · rw [Shape.rowMajor_val_three, Shape.rowMajor_val_four]
    show ((f.val * 3 + c.val) * n + i.val) * m + j.val = ((3 * f.val + c.val) * n + i.val) * m + j.val
    ring
  · intro b
    match b with
    | ⟨0, _⟩ => rfl
    | ⟨1, _⟩ => rfl
    | ⟨2, _⟩ => rfl
    | ⟨3, _⟩ => rfl

/-- Reading channel-major and back is the identity. -/
theorem toCL_toCM {n m : Nat} (Y : (⟨4, ![6, n, m, 3]⟩ : Shape).Idx → EReal) (ht) (hs) (hs') (ht') :
    toCL (toCM Y ht hs) hs' ht' = Y := by
  funext j
  obtain ⟨f, i, j', c, rfl⟩ : ∃ (f : Fin 6) (i : Fin n) (j' : Fin m) (c : Fin 3), j = ix4 f i j' c :=
    ⟨j 0, j 1, j 2, j 3, eq_ix4 j⟩
  exact (toCL_apply _ hs' ht' f i j' c).trans (toCM_apply Y ht hs f i j' c)

/-- Averaging windows commutes with the change of layout: the window of an entry is taken inside one face and one channel. -/
theorem toCL_poolCM {N M n m : Nat} (hN : N = 2 * n) (hM : M = 2 * m) (X : (⟨3, ![18, N, M]⟩ : Shape).Idx → EReal)
    (hs) (ht) (hs') (ht') :
    toCL (poolCM hN hM X) hs ht = poolCL hN hM (toCL X hs' ht') := by
  funext j
  obtain ⟨f, i, j', c, rfl⟩ : ∃ (f : Fin 6) (i : Fin n) (j' : Fin m) (c : Fin 3), j = ix4 f i j' c :=
    ⟨j 0, j 1, j 2, j 3, eq_ix4 j⟩
  refine (toCL_apply _ hs ht f i j' c).trans ?_
  show Ideal.div (∑ k : Fin 2 × Fin 2, X (upCM hN hM (ix3 _ i j') k)) four
    = Ideal.div (∑ k : Fin 2 × Fin 2, toCL X hs' ht' (upCL hN hM (ix4 f i j' c) k)) four
  congr 1
  refine Finset.sum_congr rfl fun k _ => ?_
  exact (toCL_apply X hs' ht' ⟨f.val, f.isLt⟩
    ⟨2 * i.val + k.1.val, by have := i.isLt; have := k.1.isLt; omega⟩
    ⟨2 * j'.val + k.2.val, by have := j'.isLt; have := k.2.isLt; omega⟩ ⟨c.val, c.isLt⟩).symm

end Cert.Pool

end
-- ==== Proof.Chain.lean ====
import proofs.«168697_j16149077033155_1_alg».proof.Proof.Pool

noncomputable section

/-! # The mip chain in the two layouts

From a channel-last array [6, 2048, 2048, 3] the chain takes the 2 x 2 window average seven times, down to [6, 16, 16, 3]. One program
keeps the running array channel-major ([18, H, H], leading axis 3 * face + channel) and changes the layout of each level on the way
out; the other stays channel-last throughout. A window is taken inside one face and one channel, so averaging commutes with the
change of layout, and level by level the two chains hold the same arrays. -/

namespace Cert.Chain

open Idealize.ShloMosaic Idealize.ShloMosaic.ValueIdx Cert.Pool

/-- The argument's type: six faces of 2048 x 2048 texels with three channels. -/
abbrev Base := (⟨4, ![6, 2048, 2048, 3]⟩ : Shape).Idx → EReal

/-- Level 0 channel-major: the argument with the channel moved next to the face and merged with it. -/
def cm0 (b : Base) : (⟨3, ![18, 2048, 2048]⟩ : Shape).Idx → EReal := toCM b (by decide) (by decide)
/-- Level 1 channel-major: the window average of level 0. -/
def cm1 (b : Base) : (⟨3, ![18, 1024, 1024]⟩ : Shape).Idx → EReal :=
  poolCM (B := 18) (N := 2048) (M := 2048) (n := 1024) (m := 1024) rfl rfl (cm0 b)
/-- Level 2 channel-major: the window average of level 1. -/
def cm2 (b : Base) : (⟨3, ![18, 512, 512]⟩ : Shape).Idx → EReal :=
  poolCM (B := 18) (N := 1024) (M := 1024) (n := 512) (m := 512) rfl rfl (cm1 b)
/-- Level 3 channel-major: the window average of level 2. -/
def cm3 (b : Base) : (⟨3, ![18, 256, 256]⟩ : Shape).Idx → EReal :=
  poolCM (B := 18) (N := 512) (M := 512) (n := 256) (m := 256) rfl rfl (cm2 b)
/-- Level 4 channel-major: the window average of level 3. -/
def cm4 (b : Base) : (⟨3, ![18, 128, 128]⟩ : Shape).Idx → EReal :=
  poolCM (B := 18) (N := 256) (M := 256) (n := 128) (m := 128) rfl rfl (cm3 b)
/-- Level 5 channel-major: the window average of level 4. -/
def cm5 (b : Base) : (⟨3, ![18, 64, 64]⟩ : Shape).Idx → EReal :=
  poolCM (B := 18) (N := 128) (M := 128) (n := 64) (m := 64) rfl rfl (cm4 b)
/-- Level 6 channel-major: the window average of level 5. -/
def cm6 (b : Base) : (⟨3, ![18, 32, 32]⟩ : Shape).Idx → EReal :=
  poolCM (B := 18) (N := 64) (M := 64) (n := 32) (m := 32) rfl rfl (cm5 b)
/-- Level 7 channel-major: the window average of level 6. -/
def cm7 (b : Base) : (⟨3, ![18, 16, 16]⟩ : Shape).Idx → EReal :=
  poolCM (B := 18) (N := 32) (M := 32) (n := 16) (m := 16) rfl rfl (cm6 b)

/-- Level 1 channel-last: the window average of the argument. -/
def cl1 (b : Base) : (⟨4, ![6, 1024, 1024, 3]⟩ : Shape).Idx → EReal :=
  poolCL (B := 6) (N := 2048) (M := 2048) (C := 3) (n := 1024) (m := 1024) rfl rfl b
/-- Level 2 channel-last: the window average of level 1. -/
def cl2 (b : Base) : (⟨4, ![6, 512, 512, 3]⟩ : Shape).Idx → EReal :=
  poolCL (B := 6) (N := 1024) (M := 1024) (C := 3) (n := 512) (m := 512) rfl rfl (cl1 b)
/-- Level 3 channel-last: the window average of level 2. -/
def cl3 (b : Base) : (⟨4, ![6, 256, 256, 3]⟩ : Shape).Idx → EReal :=
  poolCL (B := 6) (N := 512) (M := 512) (C := 3) (n := 256) (m := 256) rfl rfl (cl2 b)
/-- Level 4 channel-last: the window average of level 3. -/
def cl4 (b : Base) : (⟨4, ![6, 128, 128, 3]⟩ : Shape).Idx → EReal :=
  poolCL (B := 6) (N := 256) (M := 256) (C := 3) (n := 128) (m := 128) rfl rfl (cl3 b)
/-- Level 5 channel-last: the window average of level 4. -/
def cl5 (b : Base) : (⟨4, ![6, 64, 64, 3]⟩ : Shape).Idx → EReal :=
  poolCL (B := 6) (N := 128) (M := 128) (C := 3) (n := 64) (m := 64) rfl rfl (cl4 b)
/-- Level 6 channel-last: the window average of level 5. -/
def cl6 (b : Base) : (⟨4, ![6, 32, 32, 3]⟩ : Shape).Idx → EReal :=
  poolCL (B := 6) (N := 64) (M := 64) (C := 3) (n := 32) (m := 32) rfl rfl (cl5 b)
/-- Level 7 channel-last: the window average of level 6. -/
def cl7 (b : Base) : (⟨4, ![6, 16, 16, 3]⟩ : Shape).Idx → EReal :=
  poolCL (B := 6) (N := 32) (M := 32) (C := 3) (n := 16) (m := 16) rfl rfl (cl6 b)

/-- Level 0 read back channel-last is the argument. -/
theorem toCL_cm0 (b : Base) (hs) (ht) : toCL (cm0 b) hs ht = b := by
  unfold cm0; exact toCL_toCM b _ _ hs ht

/-- Level 1 in the two layouts: average, then change layout = change layout (back to the argument), then average. -/
theorem toCL_cm1 (b : Base) (hs) (ht) : toCL (cm1 b) hs ht = cl1 b := by
  unfold cm1 cl1
  rw [toCL_poolCM (N := 2048) (M := 2048) (n := 1024) (m := 1024) rfl rfl (cm0 b) hs ht (by decide) (by decide), toCL_cm0]
/-- Level 2 in the two layouts, from level 1. -/
theorem toCL_cm2 (b : Base) (hs) (ht) : toCL (cm2 b) hs ht = cl2 b := by
  unfold cm2 cl2
  rw [toCL_poolCM (N := 1024) (M := 1024) (n := 512) (m := 512) rfl rfl (cm1 b) hs ht (by decide) (by decide), toCL_cm1]
/-- Level 3 in the two layouts, from level 2. -/
theorem toCL_cm3 (b : Base) (hs) (ht) : toCL (cm3 b) hs ht = cl3 b := by
  unfold cm3 cl3
  rw [toCL_poolCM (N := 512) (M := 512) (n := 256) (m := 256) rfl rfl (cm2 b) hs ht (by decide) (by decide), toCL_cm2]
/-- Level 4 in the two layouts, from level 3. -/
theorem toCL_cm4 (b : Base) (hs) (ht) : toCL (cm4 b) hs ht = cl4 b := by
  unfold cm4 cl4
  rw [toCL_poolCM (N := 256) (M := 256) (n := 128) (m := 128) rfl rfl (cm3 b) hs ht (by decide) (by decide), toCL_cm3]
/-- Level 5 in the two layouts, from level 4. -/
theorem toCL_cm5 (b : Base) (hs) (ht) : toCL (cm5 b) hs ht = cl5 b := by
  unfold cm5 cl5
  rw [toCL_poolCM (N := 128) (M := 128) (n := 64) (m := 64) rfl rfl (cm4 b) hs ht (by decide) (by decide), toCL_cm4]
/-- Level 6 in the two layouts, from level 5. -/
theorem toCL_cm6 (b : Base) (hs) (ht) : toCL (cm6 b) hs ht = cl6 b := by
  unfold cm6 cl6
  rw [toCL_poolCM (N := 64) (M := 64) (n := 32) (m := 32) rfl rfl (cm5 b) hs ht (by decide) (by decide), toCL_cm5]
/-- Level 7 in the two layouts, from level 6. -/
theorem toCL_cm7 (b : Base) (hs) (ht) : toCL (cm7 b) hs ht = cl7 b := by
  unfold cm7 cl7
  rw [toCL_poolCM (N := 32) (M := 32) (n := 16) (m := 16) rfl rfl (cm6 b) hs ht (by decide) (by decide), toCL_cm6]

end Cert.Chain

end
-- ==== Proof.Level0.lean ====
import proofs.«168697_j16149077033155_1_alg».proof.Proof.Pool
import proofs.«168697_j16149077033155_1_alg».proof.Proof.Gen.KernelIdeal.Frame
import Idealize.ShloMosaic.Lib.Pipeline.Value

set_option maxRecDepth 16384

noncomputable section

namespace Cert.KernelIdeal.Level0

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (V : (c : Dev nD) → (b : Ref sig .tc) → Buf (Elt Ideal) ((c : Thread nD τ).loc b))

/-! # Level 0: the array region 0 leaves is the 2 x 2 average of the array it finds

Region 0 walks the 18 face-channel planes of a [18, 2048, 2048] array in two row halves each: at a grid point the block
[1, 1024, 2048] (one half of a plane's rows) is averaged over 2 x 2 windows into the block [1, 512, 1024] of the result. A window never
straddles the two halves (each half starts at an even row), so averaging a half is averaging the array and then looking at that
half; the 36 halves cover the result. -/

/-- The zero offsets of a whole-block access. -/
theorem hz : (![0, 0, 0] : Fin 3 → Nat) = fun _ => 0 := funext fun a => by fin_cases a <;> rfl

/-- On one block the body's value is the window average of the block. -/
theorem pay_eq (x0 : Vec Ideal S1x1024x2048 .f32) :
    k0_pay1 (F := Ideal) x0 = poolCM (B := 1) (N := 1024) (M := 2048) (n := 512) (m := 1024) rfl rfl x0 :=
  kernel_payload (N := 1024) (M := 2048) (n := 512) (m := 1024) rfl rfl x0 _ _ _ _ _

/-- At every grid point the input and the output block sit at the same plane and the same row half, at column block 0. -/
theorem idx_facts : ∀ t : Fin cfg0.N, win0_0.index t (0 : Fin 3) = win0_1.index t (0 : Fin 3) ∧ win0_0.index t (1 : Fin 3) = win0_1.index t (1 : Fin 3)
    ∧ win0_0.index t (2 : Fin 3) = 0 ∧ win0_1.index t (2 : Fin 3) = 0 ∧ win0_1.index t (0 : Fin 3) < 18 ∧ win0_1.index t (1 : Fin 3) < 2 :=
  (by decide +kernel : ∀ t : Fin grid0.N, _)

/-- Every half of every plane is some grid point's. -/
theorem idx_onto : ∀ (q : Fin 18) (h : Fin 2), ∃ t : Fin cfg0.N, win0_1.index t (0 : Fin 3) = q.val ∧ win0_1.index t (1 : Fin 3) = h.val :=
  (by decide +kernel : ∀ (q : Fin 18) (h : Fin 2), ∃ t : Fin grid0.N, win0_1.index t (0 : Fin 3) = q.val ∧ win0_1.index t (1 : Fin 3) = h.val)

/-- What a grid point writes back is its block of the window average of the array the region finds: entry (0, r, s) of the
    averaged block reads the block at rows 2r, 2r+1 and columns 2s, 2s+1; in half h of the plane these are the array's rows
    1024 h + 2r, 1024 h + 2r + 1, the window of the result's row 512 h + r. -/
theorem flushed_eq (c : Dev nD) (t : Fin cfg0.N) :
    (dat0 V c).flushed 1 t = ((cfg0.win 1).blk t).view.read (Elt Ideal)
      (poolCM (B := 18) (N := 2048) (M := 2048) (n := 1024) (m := 1024) rfl rfl (V c main_v1)) := by
  show (cfg0.win 1).cut (grid0.coords t) ((dat0 V c).after 1 t) = _
  rw [after0_1]
  unfold out0_1
  rw [View.canon_unit_zero hz]
  simp only [View.ld_unit_zero (S := S1x1024x2048) hz]
  rw [pay_eq]
  obtain ⟨e0, e1, e2, e3, e4, e5⟩ := idx_facts t
  funext y
  show poolCM (B := 1) (N := 1024) (M := 2048) (n := 512) (m := 1024) rfl rfl (iblk0 V c 0 t) y
      = poolCM (B := 18) (N := 2048) (M := 2048) (n := 1024) (m := 1024) rfl rfl (V c main_v1) (((cfg0.win 1).blk t).view.emb y)
  unfold poolCM
  refine congrArg (fun s => Ideal.div s four) (Finset.sum_congr rfl fun k _ => ?_)
  show V c main_v1 (((cfg0.win 0).blk t).view.emb (upCM (B := 1) (N := 1024) (M := 2048) (n := 512) (m := 1024) rfl rfl y k))
      = V c main_v1 (upCM (B := 18) (N := 2048) (M := 2048) (n := 1024) (m := 1024) rfl rfl (((cfg0.win 1).blk t).view.emb y) k)
  refine congrArg (V c main_v1) (funext fun a => Fin.ext ?_)
  have hk1 := k.1.isLt
  have hk2 := k.2.isLt
  match a with
  | ⟨0, _⟩ =>
    show win0_0.index t (0 : Fin 3) * 1 + 1 * (y 0).val = win0_1.index t (0 : Fin 3) * 1 + 1 * (y 0).val
    omega
  | ⟨1, _⟩ =>
    show win0_0.index t (1 : Fin 3) * 1024 + 1 * (2 * (y 1).val + k.1.val) = 2 * (win0_1.index t (1 : Fin 3) * 512 + 1 * (y 1).val) + k.1.val
    omega
  | ⟨2, _⟩ =>
    show win0_0.index t (2 : Fin 3) * 2048 + 1 * (2 * (y 2).val + k.2.val) = 2 * (win0_1.index t (2 : Fin 3) * 1024 + 1 * (y 2).val) + k.2.val
    omega

/-- An entry of the result lies in a grid point's block when each coordinate lies in the block's range. -/
theorem mem_blk (t : Fin cfg0.N) (i : S18x1024x1024.Idx) :
    i ∈ ((cfg0.win 1).blk t).view.set ↔ ∀ a : Fin 3, win0_1.index t a * S1x512x1024.size a ≤ (i a).val
      ∧ (i a).val < win0_1.index t a * S1x512x1024.size a + S1x512x1024.size a := by
  show i ∈ ((View.whole main_v2).slice (win0_1.rect t)).set ↔ _
  rw [View.set_slice_whole, Rect.mem_set_unit]
  exact Iff.rfl

/-- The blocks cover the result: entry (p, r, s) is in the block of the grid point of plane p and row half r / 512. -/
theorem cover (i : S18x1024x1024.Idx) :
    ∃ t : Fin cfg0.N, (cfg0.win 1).flush t = true ∧ i ∈ ((cfg0.win 1).blk t).view.set := by
  have hi0 : (i 0).val < 18 := (i 0).isLt
  have hi1 : (i 1).val < 1024 := (i 1).isLt
  have hi2 : (i 2).val < 1024 := (i 2).isLt
  obtain ⟨t, ht0, ht1⟩ := idx_onto ⟨(i 0).val, hi0⟩ ⟨(i 1).val / 512, by omega⟩
  have ht0' : win0_1.index t (0 : Fin 3) = (i 0).val := ht0
  have ht1' : win0_1.index t (1 : Fin 3) = (i 1).val / 512 := ht1
  obtain ⟨e0, e1, e2, e3, e4, e5⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 512 ≤ (i 1).val ∧ (i 1).val < win0_1.index t (1 : Fin 3) * 512 + 512
    omega
  | ⟨2, _⟩ =>
    show win0_1.index t (2 : Fin 3) * 1024 ≤ (i 2).val ∧ (i 2).val < win0_1.index t (2 : Fin 3) * 1024 + 1024
    omega

/-- The array region 0 leaves: the 2 x 2 window average of the array it finds. -/
theorem final (c : Dev nD) :
    (dat0 V c).arrAt 1 cfg0.N = poolCM (B := 18) (N := 2048) (M := 2048) (n := 1024) (m := 1024) rfl rfl (V c main_v1) :=
  (dat0 V c).arrAt_eq_of_cover 1 _ (fun t _ => flushed_eq V c t) cover

end Cert.KernelIdeal.Level0

end
-- ==== Proof.Level1.lean ====
import proofs.«168697_j16149077033155_1_alg».proof.Proof.Pool
import proofs.«168697_j16149077033155_1_alg».proof.Proof.Gen.KernelIdeal.Frame
import Idealize.ShloMosaic.Lib.Pipeline.Value

set_option maxRecDepth 16384

noncomputable section

namespace Cert.KernelIdeal.Level1

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (V : (c : Dev nD) → (b : Ref sig .tc) → Buf (Elt Ideal) ((c : Thread nD τ).loc b))

/-! # Level 1: the array region 1 leaves is the 2 x 2 average of the array it finds

Region 1 walks the 18 face-channel planes of a [18, 1024, 1024] array, one whole plane per grid point: the plane's block
[1, 1024, 1024] is averaged over 2 x 2 windows into the block [1, 512, 512] of the result. Averaging a plane is averaging the array and
then looking at that plane, and the 18 planes cover the result; so the result is the window average of the whole array. -/

/-- The zero offsets of a whole-block access. -/
theorem hz : (![0, 0, 0] : Fin 3 → Nat) = fun _ => 0 := funext fun a => by fin_cases a <;> rfl

/-- On one plane the body's value is the window average of the plane. -/
theorem pay_eq (x0 : Vec Ideal S1x1024x1024 .f32) :
    k1_pay1 (F := Ideal) x0 = poolCM (B := 1) (N := 1024) (M := 1024) (n := 512) (m := 512) rfl rfl x0 :=
  kernel_payload (N := 1024) (M := 1024) (n := 512) (m := 512) rfl rfl x0 _ _ _ _ _

/-- At every grid point the input and the output block sit at the same plane, at row and column block 0. -/
theorem idx_facts : ∀ t : Fin cfg1.N, win1_0.index t (0 : Fin 3) = win1_1.index t (0 : Fin 3) ∧ win1_0.index t (1 : Fin 3) = 0
    ∧ win1_0.index t (2 : Fin 3) = 0 ∧ win1_1.index t (1 : Fin 3) = 0 ∧ win1_1.index t (2 : Fin 3) = 0 ∧ win1_1.index t (0 : Fin 3) < 18 :=
  (by decide +kernel : ∀ t : Fin grid1.N, _)

/-- Every plane is some grid point's. -/
theorem idx_onto : ∀ q : Fin 18, ∃ t : Fin cfg1.N, win1_1.index t (0 : Fin 3) = q.val :=
  (by decide +kernel : ∀ q : Fin 18, ∃ t : Fin grid1.N, win1_1.index t (0 : Fin 3) = q.val)

/-- What a grid point writes back is its plane of the window average of the array the region finds: entry (0, r, s) of the
    averaged block reads the block at rows 2r, 2r+1 and columns 2s, 2s+1, which are the array's entries of the same plane at
    those rows and columns. -/
theorem flushed_eq (c : Dev nD) (t : Fin cfg1.N) :
    (dat1 V c).flushed 1 t = ((cfg1.win 1).blk t).view.read (Elt Ideal)
      (poolCM (B := 18) (N := 1024) (M := 1024) (n := 512) (m := 512) rfl rfl (V c main_v2)) := by
  show (cfg1.win 1).cut (grid1.coords t) ((dat1 V c).after 1 t) = _
  rw [after1_1]
  unfold out1_1
  rw [View.canon_unit_zero hz]
  simp only [View.ld_unit_zero (S := S1x1024x1024) hz]
  rw [pay_eq]
  obtain ⟨e0, e1, e2, e3, e4, e5⟩ := idx_facts t
  funext y
  show poolCM (B := 1) (N := 1024) (M := 1024) (n := 512) (m := 512) rfl rfl (iblk1 V c 0 t) y
      = poolCM (B := 18) (N := 1024) (M := 1024) (n := 512) (m := 512) rfl rfl (V c main_v2) (((cfg1.win 1).blk t).view.emb y)
  unfold poolCM
  refine congrArg (fun s => Ideal.div s four) (Finset.sum_congr rfl fun k _ => ?_)
  show V c main_v2 (((cfg1.win 0).blk t).view.emb (upCM (B := 1) (N := 1024) (M := 1024) (n := 512) (m := 512) rfl rfl y k))
      = V c main_v2 (upCM (B := 18) (N := 1024) (M := 1024) (n := 512) (m := 512) rfl rfl (((cfg1.win 1).blk t).view.emb y) k)
  refine congrArg (V c main_v2) (funext fun a => Fin.ext ?_)
  have hk1 := k.1.isLt
  have hk2 := k.2.isLt
  match a with
  | ⟨0, _⟩ =>
    show win1_0.index t (0 : Fin 3) * 1 + 1 * (y 0).val = win1_1.index t (0 : Fin 3) * 1 + 1 * (y 0).val
    omega
  | ⟨1, _⟩ =>
    show win1_0.index t (1 : Fin 3) * 1024 + 1 * (2 * (y 1).val + k.1.val) = 2 * (win1_1.index t (1 : Fin 3) * 512 + 1 * (y 1).val) + k.1.val
    omega
  | ⟨2, _⟩ =>
    show win1_0.index t (2 : Fin 3) * 1024 + 1 * (2 * (y 2).val + k.2.val) = 2 * (win1_1.index t (2 : Fin 3) * 512 + 1 * (y 2).val) + k.2.val
    omega

/-- An entry of the result lies in a grid point's block when each coordinate lies in the block's range. -/
theorem mem_blk (t : Fin cfg1.N) (i : S18x512x512.Idx) :
    i ∈ ((cfg1.win 1).blk t).view.set ↔ ∀ a : Fin 3, win1_1.index t a * S1x512x512.size a ≤ (i a).val
      ∧ (i a).val < win1_1.index t a * S1x512x512.size a + S1x512x512.size a := by
  show i ∈ ((View.whole main_v5).slice (win1_1.rect t)).set ↔ _
  rw [View.set_slice_whole, Rect.mem_set_unit]
  exact Iff.rfl

/-- The planes cover the result: entry (p, r, s) is in the block of the grid point of plane p. -/
theorem cover (i : S18x512x512.Idx) :
    ∃ t : Fin cfg1.N, (cfg1.win 1).flush t = true ∧ i ∈ ((cfg1.win 1).blk t).view.set := by
  have hi0 : (i 0).val < 18 := (i 0).isLt
  have hi1 : (i 1).val < 512 := (i 1).isLt
  have hi2 : (i 2).val < 512 := (i 2).isLt
  obtain ⟨t, ht⟩ := idx_onto ⟨(i 0).val, hi0⟩
  have ht' : win1_1.index t (0 : Fin 3) = (i 0).val := ht
  obtain ⟨e0, e1, e2, e3, e4, e5⟩ := idx_facts t
  refine ⟨t, flush1_1 t, ?_⟩
  rw [mem_blk]
  intro a
  match a with
  | ⟨0, _⟩ =>
    show win1_1.index t (0 : Fin 3) * 1 ≤ (i 0).val ∧ (i 0).val < win1_1.index t (0 : Fin 3) * 1 + 1
    omega
  | ⟨1, _⟩ =>
    show win1_1.index t (1 : Fin 3) * 512 ≤ (i 1).val ∧ (i 1).val < win1_1.index t (1 : Fin 3) * 512 + 512
    omega
  | ⟨2, _⟩ =>
    show win1_1.index t (2 : Fin 3) * 512 ≤ (i 2).val ∧ (i 2).val < win1_1.index t (2 : Fin 3) * 512 + 512
    omega

/-- The array region 1 leaves: the 2 x 2 window average of the array it finds. -/
theorem final (c : Dev nD) :
    (dat1 V c).arrAt 1 cfg1.N = poolCM (B := 18) (N := 1024) (M := 1024) (n := 512) (m := 512) rfl rfl (V c main_v2) :=
  (dat1 V c).arrAt_eq_of_cover 1 _ (fun t _ => flushed_eq V c t) cover

end Cert.KernelIdeal.Level1

end
-- ==== Proof.Level2.lean ====
import proofs.«168697_j16149077033155_1_alg».proof.Proof.Pool
import proofs.«168697_j16149077033155_1_alg».proof.Proof.Gen.KernelIdeal.Frame
import Idealize.ShloMosaic.Lib.Pipeline.Value

set_option maxRecDepth 16384

noncomputable section

namespace Cert.KernelIdeal.Level2

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (V : (c : Dev nD) → (b : Ref sig .tc) → Buf (Elt Ideal) ((c : Thread nD τ).loc b))

/-! # Level 2: the array region 2 leaves is the 2 x 2 average of the array it finds

Region 2 walks the 18 face-channel planes of a [18, 512, 512] array, one whole plane per grid point: the plane's block
[1, 512, 512] is averaged over 2 x 2 windows into the block [1, 256, 256] of the result. Averaging a plane is averaging the array and
then looking at that plane, and the 18 planes cover the result; so the result is the window average of the whole array. -/

/-- The zero offsets of a whole-block access. -/
theorem hz : (![0, 0, 0] : Fin 3 → Nat) = fun _ => 0 := funext fun a => by fin_cases a <;> rfl

/-- On one plane the body's value is the window average of the plane. -/
theorem pay_eq (x0 : Vec Ideal S1x512x512 .f32) :
    k2_pay1 (F := Ideal) x0 = poolCM (B := 1) (N := 512) (M := 512) (n := 256) (m := 256) rfl rfl x0 :=
  kernel_payload (N := 512) (M := 512) (n := 256) (m := 256) rfl rfl x0 _ _ _ _ _

/-- At every grid point the input and the output block sit at the same plane, at row and column block 0. -/
theorem idx_facts : ∀ t : Fin cfg2.N, win2_0.index t (0 : Fin 3) = win2_1.index t (0 : Fin 3) ∧ win2_0.index t (1 : Fin 3) = 0
    ∧ win2_0.index t (2 : Fin 3) = 0 ∧ win2_1.index t (1 : Fin 3) = 0 ∧ win2_1.index t (2 : Fin 3) = 0 ∧ win2_1.index t (0 : Fin 3) < 18 :=
  (by decide +kernel : ∀ t : Fin grid2.N, _)

/-- Every plane is some grid point's. -/
theorem idx_onto : ∀ q : Fin 18, ∃ t : Fin cfg2.N, win2_1.index t (0 : Fin 3) = q.val :=
  (by decide +kernel : ∀ q : Fin 18, ∃ t : Fin grid2.N, win2_1.index t (0 : Fin 3) = q.val)

/-- What a grid point writes back is its plane of the window average of the array the region finds: entry (0, r, s) of the
    averaged block reads the block at rows 2r, 2r+1 and columns 2s, 2s+1, which are the array's entries of the same plane at
    those rows and columns. -/
theorem flushed_eq (c : Dev nD) (t : Fin cfg2.N) :
    (dat2 V c).flushed 1 t = ((cfg2.win 1).blk t).view.read (Elt Ideal)
      (poolCM (B := 18) (N := 512) (M := 512) (n := 256) (m := 256) rfl rfl (V c main_v5)) := by
  show (cfg2.win 1).cut (grid2.coords t) ((dat2 V c).after 1 t) = _
  rw [after2_1]
  unfold out2_1
  rw [View.canon_unit_zero hz]
  simp only [View.ld_unit_zero (S := S1x512x512) hz]
  rw [pay_eq]
  obtain ⟨e0, e1, e2, e3, e4, e5⟩ := idx_facts t
  funext y
  show poolCM (B := 1) (N := 512) (M := 512) (n := 256) (m := 256) rfl rfl (iblk2 V c 0 t) y
      = poolCM (B := 18) (N := 512) (M := 512) (n := 256) (m := 256) rfl rfl (V c main_v5) (((cfg2.win 1).blk t).view.emb y)
  unfold poolCM
  refine congrArg (fun s => Ideal.div s four) (Finset.sum_congr rfl fun k _ => ?_)
  show V c main_v5 (((cfg2.win 0).blk t).view.emb (upCM (B := 1) (N := 512) (M := 512) (n := 256) (m := 256) rfl rfl y k))
      = V c main_v5 (upCM (B := 18) (N := 512) (M := 512) (n := 256) (m := 256) rfl rfl (((cfg2.win 1).blk t).view.emb y) k)
  refine congrArg (V c main_v5) (funext fun a => Fin.ext ?_)
  have hk1 := k.1.isLt
  have hk2 := k.2.isLt
  match a with
  | ⟨0, _⟩ =>
    show win2_0.index t (0 : Fin 3) * 1 + 1 * (y 0).val = win2_1.index t (0 : Fin 3) * 1 + 1 * (y 0).val
    omega
  | ⟨1, _⟩ =>
    show win2_0.index t (1 : Fin 3) * 512 + 1 * (2 * (y 1).val + k.1.val) = 2 * (win2_1.index t (1 : Fin 3) * 256 + 1 * (y 1).val) + k.1.val
    omega
  | ⟨2, _⟩ =>
    show win2_0.index t (2 : Fin 3) * 512 + 1 * (2 * (y 2).val + k.2.val) = 2 * (win2_1.index t (2 : Fin 3) * 256 + 1 * (y 2).val) + k.2.val
    omega

/-- An entry of the result lies in a grid point's block when each coordinate lies in the block's range. -/
theorem mem_blk (t : Fin cfg2.N) (i : S18x256x256.Idx) :
    i ∈ ((cfg2.win 1).blk t).view.set ↔ ∀ a : Fin 3, win2_1.index t a * S1x256x256.size a ≤ (i a).val
      ∧ (i a).val < win2_1.index t a * S1x256x256.size a + S1x256x256.size a := by
  show i ∈ ((View.whole main_v8).slice (win2_1.rect t)).set ↔ _
  rw [View.set_slice_whole, Rect.mem_set_unit]
  exact Iff.rfl

/-- The planes cover the result: entry (p, r, s) is in the block of the grid point of plane p. -/
theorem cover (i : S18x256x256.Idx) :
    ∃ t : Fin cfg2.N, (cfg2.win 1).flush t = true ∧ i ∈ ((cfg2.win 1).blk t).view.set := by
  have hi0 : (i 0).val < 18 := (i 0).isLt
  have hi1 : (i 1).val < 256 := (i 1).isLt
  have hi2 : (i 2).val < 256 := (i 2).isLt
  obtain ⟨t, ht⟩ := idx_onto ⟨(i 0).val, hi0⟩
  have ht' : win2_1.index t (0 : Fin 3) = (i 0).val := ht
  obtain ⟨e0, e1, e2, e3, e4, e5⟩ := idx_facts t
  refine ⟨t, flush2_1 t, ?_⟩
  rw [mem_blk]
  intro a
  match a with
  | ⟨0, _⟩ =>
    show win2_1.index t (0 : Fin 3) * 1 ≤ (i 0).val ∧ (i 0).val < win2_1.index t (0 : Fin 3) * 1 + 1
    omega
  | ⟨1, _⟩ =>
    show win2_1.index t (1 : Fin 3) * 256 ≤ (i 1).val ∧ (i 1).val < win2_1.index t (1 : Fin 3) * 256 + 256
    omega
  | ⟨2, _⟩ =>
    show win2_1.index t (2 : Fin 3) * 256 ≤ (i 2).val ∧ (i 2).val < win2_1.index t (2 : Fin 3) * 256 + 256
    omega

/-- The array region 2 leaves: the 2 x 2 window average of the array it finds. -/
theorem final (c : Dev nD) :
    (dat2 V c).arrAt 1 cfg2.N = poolCM (B := 18) (N := 512) (M := 512) (n := 256) (m := 256) rfl rfl (V c main_v5) :=
  (dat2 V c).arrAt_eq_of_cover 1 _ (fun t _ => flushed_eq V c t) cover

end Cert.KernelIdeal.Level2

end
-- ==== Proof.Level3.lean ====
import proofs.«168697_j16149077033155_1_alg».proof.Proof.Pool
import proofs.«168697_j16149077033155_1_alg».proof.Proof.Gen.KernelIdeal.Frame
import Idealize.ShloMosaic.Lib.Pipeline.Value

set_option maxRecDepth 16384

noncomputable section

namespace Cert.KernelIdeal.Level3

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (V : (c : Dev nD) → (b : Ref sig .tc) → Buf (Elt Ideal) ((c : Thread nD τ).loc b))

/-! # Level 3: the array region 3 leaves is the 2 x 2 average of the array it finds

Region 3 walks the 18 face-channel planes of a [18, 256, 256] array, one whole plane per grid point: the plane's block
[1, 256, 256] is averaged over 2 x 2 windows into the block [1, 128, 128] of the result. Averaging a plane is averaging the array and
then looking at that plane, and the 18 planes cover the result; so the result is the window average of the whole array. -/

/-- The zero offsets of a whole-block access. -/
theorem hz : (![0, 0, 0] : Fin 3 → Nat) = fun _ => 0 := funext fun a => by fin_cases a <;> rfl

/-- On one plane the body's value is the window average of the plane. -/
theorem pay_eq (x0 : Vec Ideal S1x256x256 .f32) :
    k3_pay1 (F := Ideal) x0 = poolCM (B := 1) (N := 256) (M := 256) (n := 128) (m := 128) rfl rfl x0 :=
  kernel_payload (N := 256) (M := 256) (n := 128) (m := 128) rfl rfl x0 _ _ _ _ _

/-- At every grid point the input and the output block sit at the same plane, at row and column block 0. -/
theorem idx_facts : ∀ t : Fin cfg3.N, win3_0.index t (0 : Fin 3) = win3_1.index t (0 : Fin 3) ∧ win3_0.index t (1 : Fin 3) = 0
    ∧ win3_0.index t (2 : Fin 3) = 0 ∧ win3_1.index t (1 : Fin 3) = 0 ∧ win3_1.index t (2 : Fin 3) = 0 ∧ win3_1.index t (0 : Fin 3) < 18 :=
  (by decide +kernel : ∀ t : Fin grid3.N, _)

/-- Every plane is some grid point's. -/
theorem idx_onto : ∀ q : Fin 18, ∃ t : Fin cfg3.N, win3_1.index t (0 : Fin 3) = q.val :=
  (by decide +kernel : ∀ q : Fin 18, ∃ t : Fin grid3.N, win3_1.index t (0 : Fin 3) = q.val)

/-- What a grid point writes back is its plane of the window average of the array the region finds: entry (0, r, s) of the
    averaged block reads the block at rows 2r, 2r+1 and columns 2s, 2s+1, which are the array's entries of the same plane at
    those rows and columns. -/
theorem flushed_eq (c : Dev nD) (t : Fin cfg3.N) :
    (dat3 V c).flushed 1 t = ((cfg3.win 1).blk t).view.read (Elt Ideal)
      (poolCM (B := 18) (N := 256) (M := 256) (n := 128) (m := 128) rfl rfl (V c main_v8)) := by
  show (cfg3.win 1).cut (grid3.coords t) ((dat3 V c).after 1 t) = _
  rw [after3_1]
  unfold out3_1
  rw [View.canon_unit_zero hz]
  simp only [View.ld_unit_zero (S := S1x256x256) hz]
  rw [pay_eq]
  obtain ⟨e0, e1, e2, e3, e4, e5⟩ := idx_facts t
  funext y
  show poolCM (B := 1) (N := 256) (M := 256) (n := 128) (m := 128) rfl rfl (iblk3 V c 0 t) y
      = poolCM (B := 18) (N := 256) (M := 256) (n := 128) (m := 128) rfl rfl (V c main_v8) (((cfg3.win 1).blk t).view.emb y)
  unfold poolCM
  refine congrArg (fun s => Ideal.div s four) (Finset.sum_congr rfl fun k _ => ?_)
  show V c main_v8 (((cfg3.win 0).blk t).view.emb (upCM (B := 1) (N := 256) (M := 256) (n := 128) (m := 128) rfl rfl y k))
      = V c main_v8 (upCM (B := 18) (N := 256) (M := 256) (n := 128) (m := 128) rfl rfl (((cfg3.win 1).blk t).view.emb y) k)
  refine congrArg (V c main_v8) (funext fun a => Fin.ext ?_)
  have hk1 := k.1.isLt
  have hk2 := k.2.isLt
  match a with
  | ⟨0, _⟩ =>
    show win3_0.index t (0 : Fin 3) * 1 + 1 * (y 0).val = win3_1.index t (0 : Fin 3) * 1 + 1 * (y 0).val
    omega
  | ⟨1, _⟩ =>
    show win3_0.index t (1 : Fin 3) * 256 + 1 * (2 * (y 1).val + k.1.val) = 2 * (win3_1.index t (1 : Fin 3) * 128 + 1 * (y 1).val) + k.1.val
    omega
  | ⟨2, _⟩ =>
    show win3_0.index t (2 : Fin 3) * 256 + 1 * (2 * (y 2).val + k.2.val) = 2 * (win3_1.index t (2 : Fin 3) * 128 + 1 * (y 2).val) + k.2.val
    omega

/-- An entry of the result lies in a grid point's block when each coordinate lies in the block's range. -/
theorem mem_blk (t : Fin cfg3.N) (i : S18x128x128.Idx) :
    i ∈ ((cfg3.win 1).blk t).view.set ↔ ∀ a : Fin 3, win3_1.index t a * S1x128x128.size a ≤ (i a).val
      ∧ (i a).val < win3_1.index t a * S1x128x128.size a + S1x128x128.size a := by
  show i ∈ ((View.whole main_v11).slice (win3_1.rect t)).set ↔ _
  rw [View.set_slice_whole, Rect.mem_set_unit]
  exact Iff.rfl

/-- The planes cover the result: entry (p, r, s) is in the block of the grid point of plane p. -/
theorem cover (i : S18x128x128.Idx) :
    ∃ t : Fin cfg3.N, (cfg3.win 1).flush t = true ∧ i ∈ ((cfg3.win 1).blk t).view.set := by
  have hi0 : (i 0).val < 18 := (i 0).isLt
  have hi1 : (i 1).val < 128 := (i 1).isLt
  have hi2 : (i 2).val < 128 := (i 2).isLt
  obtain ⟨t, ht⟩ := idx_onto ⟨(i 0).val, hi0⟩
  have ht' : win3_1.index t (0 : Fin 3) = (i 0).val := ht
  obtain ⟨e0, e1, e2, e3, e4, e5⟩ := idx_facts t
  refine ⟨t, flush3_1 t, ?_⟩
  rw [mem_blk]
  intro a
  match a with
  | ⟨0, _⟩ =>
    show win3_1.index t (0 : Fin 3) * 1 ≤ (i 0).val ∧ (i 0).val < win3_1.index t (0 : Fin 3) * 1 + 1
    omega
  | ⟨1, _⟩ =>
    show win3_1.index t (1 : Fin 3) * 128 ≤ (i 1).val ∧ (i 1).val < win3_1.index t (1 : Fin 3) * 128 + 128
    omega
  | ⟨2, _⟩ =>
    show win3_1.index t (2 : Fin 3) * 128 ≤ (i 2).val ∧ (i 2).val < win3_1.index t (2 : Fin 3) * 128 + 128
    omega

/-- The array region 3 leaves: the 2 x 2 window average of the array it finds. -/
theorem final (c : Dev nD) :
    (dat3 V c).arrAt 1 cfg3.N = poolCM (B := 18) (N := 256) (M := 256) (n := 128) (m := 128) rfl rfl (V c main_v8) :=
  (dat3 V c).arrAt_eq_of_cover 1 _ (fun t _ => flushed_eq V c t) cover

end Cert.KernelIdeal.Level3

end
-- ==== Proof.Level4.lean ====
import proofs.«168697_j16149077033155_1_alg».proof.Proof.Pool
import proofs.«168697_j16149077033155_1_alg».proof.Proof.Gen.KernelIdeal.Frame
import Idealize.ShloMosaic.Lib.Pipeline.Value

set_option maxRecDepth 16384

noncomputable section

namespace Cert.KernelIdeal.Level4

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (V : (c : Dev nD) → (b : Ref sig .tc) → Buf (Elt Ideal) ((c : Thread nD τ).loc b))

/-! # Level 4: the array region 4 leaves is the 2 x 2 average of the array it finds

Region 4 walks the 18 face-channel planes of a [18, 128, 128] array, one whole plane per grid point: the plane's block
[1, 128, 128] is averaged over 2 x 2 windows into the block [1, 64, 64] of the result. Averaging a plane is averaging the array and
then looking at that plane, and the 18 planes cover the result; so the result is the window average of the whole array. -/

/-- The zero offsets of a whole-block access. -/
theorem hz : (![0, 0, 0] : Fin 3 → Nat) = fun _ => 0 := funext fun a => by fin_cases a <;> rfl

/-- On one plane the body's value is the window average of the plane. -/
theorem pay_eq (x0 : Vec Ideal S1x128x128 .f32) :
    k4_pay1 (F := Ideal) x0 = poolCM (B := 1) (N := 128) (M := 128) (n := 64) (m := 64) rfl rfl x0 :=
  kernel_payload (N := 128) (M := 128) (n := 64) (m := 64) rfl rfl x0 _ _ _ _ _

/-- At every grid point the input and the output block sit at the same plane, at row and column block 0. -/
theorem idx_facts : ∀ t : Fin cfg4.N, win4_0.index t (0 : Fin 3) = win4_1.index t (0 : Fin 3) ∧ win4_0.index t (1 : Fin 3) = 0
    ∧ win4_0.index t (2 : Fin 3) = 0 ∧ win4_1.index t (1 : Fin 3) = 0 ∧ win4_1.index t (2 : Fin 3) = 0 ∧ win4_1.index t (0 : Fin 3) < 18 :=
  (by decide +kernel : ∀ t : Fin grid4.N, _)

/-- Every plane is some grid point's. -/
theorem idx_onto : ∀ q : Fin 18, ∃ t : Fin cfg4.N, win4_1.index t (0 : Fin 3) = q.val :=
  (by decide +kernel : ∀ q : Fin 18, ∃ t : Fin grid4.N, win4_1.index t (0 : Fin 3) = q.val)

/-- What a grid point writes back is its plane of the window average of the array the region finds: entry (0, r, s) of the
    averaged block reads the block at rows 2r, 2r+1 and columns 2s, 2s+1, which are the array's entries of the same plane at
    those rows and columns. -/
theorem flushed_eq (c : Dev nD) (t : Fin cfg4.N) :
    (dat4 V c).flushed 1 t = ((cfg4.win 1).blk t).view.read (Elt Ideal)
      (poolCM (B := 18) (N := 128) (M := 128) (n := 64) (m := 64) rfl rfl (V c main_v11)) := by
  show (cfg4.win 1).cut (grid4.coords t) ((dat4 V c).after 1 t) = _
  rw [after4_1]
  unfold out4_1
  rw [View.canon_unit_zero hz]
  simp only [View.ld_unit_zero (S := S1x128x128) hz]
  rw [pay_eq]
  obtain ⟨e0, e1, e2, e3, e4, e5⟩ := idx_facts t
  funext y
  show poolCM (B := 1) (N := 128) (M := 128) (n := 64) (m := 64) rfl rfl (iblk4 V c 0 t) y
      = poolCM (B := 18) (N := 128) (M := 128) (n := 64) (m := 64) rfl rfl (V c main_v11) (((cfg4.win 1).blk t).view.emb y)
  unfold poolCM
  refine congrArg (fun s => Ideal.div s four) (Finset.sum_congr rfl fun k _ => ?_)
  show V c main_v11 (((cfg4.win 0).blk t).view.emb (upCM (B := 1) (N := 128) (M := 128) (n := 64) (m := 64) rfl rfl y k))
      = V c main_v11 (upCM (B := 18) (N := 128) (M := 128) (n := 64) (m := 64) rfl rfl (((cfg4.win 1).blk t).view.emb y) k)
  refine congrArg (V c main_v11) (funext fun a => Fin.ext ?_)
  have hk1 := k.1.isLt
  have hk2 := k.2.isLt
  match a with
  | ⟨0, _⟩ =>
    show win4_0.index t (0 : Fin 3) * 1 + 1 * (y 0).val = win4_1.index t (0 : Fin 3) * 1 + 1 * (y 0).val
    omega
  | ⟨1, _⟩ =>
    show win4_0.index t (1 : Fin 3) * 128 + 1 * (2 * (y 1).val + k.1.val) = 2 * (win4_1.index t (1 : Fin 3) * 64 + 1 * (y 1).val) + k.1.val
    omega
  | ⟨2, _⟩ =>
    show win4_0.index t (2 : Fin 3) * 128 + 1 * (2 * (y 2).val + k.2.val) = 2 * (win4_1.index t (2 : Fin 3) * 64 + 1 * (y 2).val) + k.2.val
    omega

/-- An entry of the result lies in a grid point's block when each coordinate lies in the block's range. -/
theorem mem_blk (t : Fin cfg4.N) (i : S18x64x64.Idx) :
    i ∈ ((cfg4.win 1).blk t).view.set ↔ ∀ a : Fin 3, win4_1.index t a * S1x64x64.size a ≤ (i a).val
      ∧ (i a).val < win4_1.index t a * S1x64x64.size a + S1x64x64.size a := by
  show i ∈ ((View.whole main_v14).slice (win4_1.rect t)).set ↔ _
  rw [View.set_slice_whole, Rect.mem_set_unit]
  exact Iff.rfl

/-- The planes cover the result: entry (p, r, s) is in the block of the grid point of plane p. -/
theorem cover (i : S18x64x64.Idx) :
    ∃ t : Fin cfg4.N, (cfg4.win 1).flush t = true ∧ i ∈ ((cfg4.win 1).blk t).view.set := by
  have hi0 : (i 0).val < 18 := (i 0).isLt
  have hi1 : (i 1).val < 64 := (i 1).isLt
  have hi2 : (i 2).val < 64 := (i 2).isLt
  obtain ⟨t, ht⟩ := idx_onto ⟨(i 0).val, hi0⟩
  have ht' : win4_1.index t (0 : Fin 3) = (i 0).val := ht
  obtain ⟨e0, e1, e2, e3, e4, e5⟩ := idx_facts t
  refine ⟨t, flush4_1 t, ?_⟩
  rw [mem_blk]
  intro a
  match a with
  | ⟨0, _⟩ =>
    show win4_1.index t (0 : Fin 3) * 1 ≤ (i 0).val ∧ (i 0).val < win4_1.index t (0 : Fin 3) * 1 + 1
    omega
  | ⟨1, _⟩ =>
    show win4_1.index t (1 : Fin 3) * 64 ≤ (i 1).val ∧ (i 1).val < win4_1.index t (1 : Fin 3) * 64 + 64
    omega
  | ⟨2, _⟩ =>
    show win4_1.index t (2 : Fin 3) * 64 ≤ (i 2).val ∧ (i 2).val < win4_1.index t (2 : Fin 3) * 64 + 64
    omega

/-- The array region 4 leaves: the 2 x 2 window average of the array it finds. -/
theorem final (c : Dev nD) :
    (dat4 V c).arrAt 1 cfg4.N = poolCM (B := 18) (N := 128) (M := 128) (n := 64) (m := 64) rfl rfl (V c main_v11) :=
  (dat4 V c).arrAt_eq_of_cover 1 _ (fun t _ => flushed_eq V c t) cover

end Cert.KernelIdeal.Level4

end
-- ==== Proof.Level5.lean ====
import proofs.«168697_j16149077033155_1_alg».proof.Proof.Pool
import proofs.«168697_j16149077033155_1_alg».proof.Proof.Gen.KernelIdeal.Frame
import Idealize.ShloMosaic.Lib.Pipeline.Value

set_option maxRecDepth 16384

noncomputable section

namespace Cert.KernelIdeal.Level5

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (V : (c : Dev nD) → (b : Ref sig .tc) → Buf (Elt Ideal) ((c : Thread nD τ).loc b))

/-! # Level 5: the array region 5 leaves is the 2 x 2 average of the array it finds

Region 5 walks the 18 face-channel planes of a [18, 64, 64] array, one whole plane per grid point: the plane's block
[1, 64, 64] is averaged over 2 x 2 windows into the block [1, 32, 32] of the result. Averaging a plane is averaging the array and
then looking at that plane, and the 18 planes cover the result; so the result is the window average of the whole array. -/

/-- The zero offsets of a whole-block access. -/
theorem hz : (![0, 0, 0] : Fin 3 → Nat) = fun _ => 0 := funext fun a => by fin_cases a <;> rfl

/-- On one plane the body's value is the window average of the plane. -/
theorem pay_eq (x0 : Vec Ideal S1x64x64 .f32) :
    k5_pay1 (F := Ideal) x0 = poolCM (B := 1) (N := 64) (M := 64) (n := 32) (m := 32) rfl rfl x0 :=
  kernel_payload (N := 64) (M := 64) (n := 32) (m := 32) rfl rfl x0 _ _ _ _ _

/-- At every grid point the input and the output block sit at the same plane, at row and column block 0. -/
theorem idx_facts : ∀ t : Fin cfg5.N, win5_0.index t (0 : Fin 3) = win5_1.index t (0 : Fin 3) ∧ win5_0.index t (1 : Fin 3) = 0
    ∧ win5_0.index t (2 : Fin 3) = 0 ∧ win5_1.index t (1 : Fin 3) = 0 ∧ win5_1.index t (2 : Fin 3) = 0 ∧ win5_1.index t (0 : Fin 3) < 18 :=
  (by decide +kernel : ∀ t : Fin grid5.N, _)

/-- Every plane is some grid point's. -/
theorem idx_onto : ∀ q : Fin 18, ∃ t : Fin cfg5.N, win5_1.index t (0 : Fin 3) = q.val :=
  (by decide +kernel : ∀ q : Fin 18, ∃ t : Fin grid5.N, win5_1.index t (0 : Fin 3) = q.val)

/-- What a grid point writes back is its plane of the window average of the array the region finds: entry (0, r, s) of the
    averaged block reads the block at rows 2r, 2r+1 and columns 2s, 2s+1, which are the array's entries of the same plane at
    those rows and columns. -/
theorem flushed_eq (c : Dev nD) (t : Fin cfg5.N) :
    (dat5 V c).flushed 1 t = ((cfg5.win 1).blk t).view.read (Elt Ideal)
      (poolCM (B := 18) (N := 64) (M := 64) (n := 32) (m := 32) rfl rfl (V c main_v14)) := by
  show (cfg5.win 1).cut (grid5.coords t) ((dat5 V c).after 1 t) = _
  rw [after5_1]
  unfold out5_1
  rw [View.canon_unit_zero hz]
  simp only [View.ld_unit_zero (S := S1x64x64) hz]
  rw [pay_eq]
  obtain ⟨e0, e1, e2, e3, e4, e5⟩ := idx_facts t
  funext y
  show poolCM (B := 1) (N := 64) (M := 64) (n := 32) (m := 32) rfl rfl (iblk5 V c 0 t) y
      = poolCM (B := 18) (N := 64) (M := 64) (n := 32) (m := 32) rfl rfl (V c main_v14) (((cfg5.win 1).blk t).view.emb y)
  unfold poolCM
  refine congrArg (fun s => Ideal.div s four) (Finset.sum_congr rfl fun k _ => ?_)
  show V c main_v14 (((cfg5.win 0).blk t).view.emb (upCM (B := 1) (N := 64) (M := 64) (n := 32) (m := 32) rfl rfl y k))
      = V c main_v14 (upCM (B := 18) (N := 64) (M := 64) (n := 32) (m := 32) rfl rfl (((cfg5.win 1).blk t).view.emb y) k)
  refine congrArg (V c main_v14) (funext fun a => Fin.ext ?_)
  have hk1 := k.1.isLt
  have hk2 := k.2.isLt
  match a with
  | ⟨0, _⟩ =>
    show win5_0.index t (0 : Fin 3) * 1 + 1 * (y 0).val = win5_1.index t (0 : Fin 3) * 1 + 1 * (y 0).val
    omega
  | ⟨1, _⟩ =>
    show win5_0.index t (1 : Fin 3) * 64 + 1 * (2 * (y 1).val + k.1.val) = 2 * (win5_1.index t (1 : Fin 3) * 32 + 1 * (y 1).val) + k.1.val
    omega
  | ⟨2, _⟩ =>
    show win5_0.index t (2 : Fin 3) * 64 + 1 * (2 * (y 2).val + k.2.val) = 2 * (win5_1.index t (2 : Fin 3) * 32 + 1 * (y 2).val) + k.2.val
    omega

/-- An entry of the result lies in a grid point's block when each coordinate lies in the block's range. -/
theorem mem_blk (t : Fin cfg5.N) (i : S18x32x32.Idx) :
    i ∈ ((cfg5.win 1).blk t).view.set ↔ ∀ a : Fin 3, win5_1.index t a * S1x32x32.size a ≤ (i a).val
      ∧ (i a).val < win5_1.index t a * S1x32x32.size a + S1x32x32.size a := by
  show i ∈ ((View.whole main_v17).slice (win5_1.rect t)).set ↔ _
  rw [View.set_slice_whole, Rect.mem_set_unit]
  exact Iff.rfl

/-- The planes cover the result: entry (p, r, s) is in the block of the grid point of plane p. -/
theorem cover (i : S18x32x32.Idx) :
    ∃ t : Fin cfg5.N, (cfg5.win 1).flush t = true ∧ i ∈ ((cfg5.win 1).blk t).view.set := by
  have hi0 : (i 0).val < 18 := (i 0).isLt
  have hi1 : (i 1).val < 32 := (i 1).isLt
  have hi2 : (i 2).val < 32 := (i 2).isLt
  obtain ⟨t, ht⟩ := idx_onto ⟨(i 0).val, hi0⟩
  have ht' : win5_1.index t (0 : Fin 3) = (i 0).val := ht
  obtain ⟨e0, e1, e2, e3, e4, e5⟩ := idx_facts t
  refine ⟨t, flush5_1 t, ?_⟩
  rw [mem_blk]
  intro a
  match a with
  | ⟨0, _⟩ =>
    show win5_1.index t (0 : Fin 3) * 1 ≤ (i 0).val ∧ (i 0).val < win5_1.index t (0 : Fin 3) * 1 + 1
    omega
  | ⟨1, _⟩ =>
    show win5_1.index t (1 : Fin 3) * 32 ≤ (i 1).val ∧ (i 1).val < win5_1.index t (1 : Fin 3) * 32 + 32
    omega
  | ⟨2, _⟩ =>
    show win5_1.index t (2 : Fin 3) * 32 ≤ (i 2).val ∧ (i 2).val < win5_1.index t (2 : Fin 3) * 32 + 32
    omega

/-- The array region 5 leaves: the 2 x 2 window average of the array it finds. -/
theorem final (c : Dev nD) :
    (dat5 V c).arrAt 1 cfg5.N = poolCM (B := 18) (N := 64) (M := 64) (n := 32) (m := 32) rfl rfl (V c main_v14) :=
  (dat5 V c).arrAt_eq_of_cover 1 _ (fun t _ => flushed_eq V c t) cover

end Cert.KernelIdeal.Level5

end
-- ==== Proof.Level6.lean ====
import proofs.«168697_j16149077033155_1_alg».proof.Proof.Pool
import proofs.«168697_j16149077033155_1_alg».proof.Proof.Gen.KernelIdeal.Frame
import Idealize.ShloMosaic.Lib.Pipeline.Value

set_option maxRecDepth 16384

noncomputable section

namespace Cert.KernelIdeal.Level6

open Cert.KernelIdeal Cert.KernelIdeal.Gen Idealize.ShloMosaic Idealize.ShloMosaic.TcCoe Idealize.SL.Sem
open Idealize.ShloMosaic.ValueIdx Cert.Pool
open Idealize.ShloMosaic.Pipeline (Dat)

variable (V : (c : Dev nD) → (b : Ref sig .tc) → Buf (Elt Ideal) ((c : Thread nD τ).loc b))

/-! # Level 6: the array region 6 leaves is the 2 x 2 average of the array it finds

Region 6 walks the 18 face-channel planes of a [18, 32, 32] array, one whole plane per grid point: the plane's block
[1, 32, 32] is averaged over 2 x 2 windows into the block [1, 16, 16] of the result. Averaging a plane is averaging the array and
then looking at that plane, and the 18 planes cover the result; so the result is the window average of the whole array. -/

/-- The zero offsets of a whole-block access. -/
theorem hz : (![0, 0, 0] : Fin 3 → Nat) = fun _ => 0 := funext fun a => by fin_cases a <;> rfl

/-- On one plane the body's value is the window average of the plane. -/
theorem pay_eq (x0 : Vec Ideal S1x32x32 .f32) :
    k6_pay1 (F := Ideal) x0 = poolCM (B := 1) (N := 32) (M := 32) (n := 16) (m := 16) rfl rfl x0 :=
  kernel_payload (N := 32) (M := 32) (n := 16) (m := 16) rfl rfl x0 _ _ _ _ _

/-- At every grid point the input and the output block sit at the same plane, at row and column block 0. -/
theorem idx_facts : ∀ t : Fin cfg6.N, win6_0.index t (0 : Fin 3) = win6_1.index t (0 : Fin 3) ∧ win6_0.index t (1 : Fin 3) = 0
    ∧ win6_0.index t (2 : Fin 3) = 0 ∧ win6_1.index t (1 : Fin 3) = 0 ∧ win6_1.index t (2 : Fin 3) = 0 ∧ win6_1.index t (0 : Fin 3) < 18 :=
  (by decide +kernel : ∀ t : Fin grid6.N, _)

/-- Every plane is some grid point's. -/
theorem idx_onto : ∀ q : Fin 18, ∃ t : Fin cfg6.N, win6_1.index t (0 : Fin 3) = q.val :=
  (by decide +kernel : ∀ q : Fin 18, ∃ t : Fin grid6.N, win6_1.index t (0 : Fin 3) = q.val)

/-- What a grid point writes back is its plane of the window average of the array the region finds: entry (0, r, s) of the
    averaged block reads the block at rows 2r, 2r+1 and columns 2s, 2s+1, which are the array's entries of the same plane at
    those rows and columns. -/
theorem flushed_eq (c : Dev nD) (t : Fin cfg6.N) :
    (dat6 V c).flushed 1 t = ((cfg6.win 1).blk t).view.read (Elt Ideal)
      (poolCM (B := 18) (N := 32) (M := 32) (n := 16) (m := 16) rfl rfl (V c main_v17)) := by
  show (cfg6.win 1).cut (grid6.coords t) ((dat6 V c).after 1 t) = _
  rw [after6_1]
  unfold out6_1
  rw [View.canon_unit_zero hz]
  simp only [View.ld_unit_zero (S := S1x32x32) hz]
  rw [pay_eq]
  obtain ⟨e0, e1, e2, e3, e4, e5⟩ := idx_facts t
  funext y
  show poolCM (B := 1) (N := 32) (M := 32) (n := 16) (m := 16) rfl rfl (iblk6 V c 0 t) y
      = poolCM (B := 18) (N := 32) (M := 32) (n := 16) (m := 16) rfl rfl (V c main_v17) (((cfg6.win 1).blk t).view.emb y)
  unfold poolCM
  refine congrArg (fun s => Ideal.div s four) (Finset.sum_congr rfl fun k _ => ?_)
  show V c main_v17 (((cfg6.win 0).blk t).view.emb (upCM (B := 1) (N := 32) (M := 32) (n := 16) (m := 16) rfl rfl y k))
      = V c main_v17 (upCM (B := 18) (N := 32) (M := 32) (n := 16) (m := 16) rfl rfl (((cfg6.win 1).blk t).view.emb y) k)
  refine congrArg (V c main_v17) (funext fun a => Fin.ext ?_)
  have hk1 := k.1.isLt
  have hk2 := k.2.isLt
  match a with
  | ⟨0, _⟩ =>
    show win6_0.index t (0 : Fin 3) * 1 + 1 * (y 0).val = win6_1.index t (0 : Fin 3) * 1 + 1 * (y 0).val
    omega
  | ⟨1, _⟩ =>
    show win6_0.index t (1 : Fin 3) * 32 + 1 * (2 * (y 1).val + k.1.val) = 2 * (win6_1.index t (1 : Fin 3) * 16 + 1 * (y 1).val) + k.1.val
    omega
  | ⟨2, _⟩ =>
    show win6_0.index t (2 : Fin 3) * 32 + 1 * (2 * (y 2).val + k.2.val) = 2 * (win6_1.index t (2 : Fin 3) * 16 + 1 * (y 2).val) + k.2.val
    omega

/-- An entry of the result lies in a grid point's block when each coordinate lies in the block's range. -/
theorem mem_blk (t : Fin cfg6.N) (i : S18x16x16.Idx) :
    i ∈ ((cfg6.win 1).blk t).view.set ↔ ∀ a : Fin 3, win6_1.index t a * S1x16x16.size a ≤ (i a).val
      ∧ (i a).val < win6_1.index t a * S1x16x16.size a + S1x16x16.size a := by
  show i ∈ ((View.whole main_v20).slice (win6_1.rect t)).set ↔ _
  rw [View.set_slice_whole, Rect.mem_set_unit]
  exact Iff.rfl

/-- The planes cover the result: entry (p, r, s) is in the block of the grid point of plane p. -/
theorem cover (i : S18x16x16.Idx) :
    ∃ t : Fin cfg6.N, (cfg6.win 1).flush t = true ∧ i ∈ ((cfg6.win 1).blk t).view.set := by
  have hi0 : (i 0).val < 18 := (i 0).isLt
  have hi1 : (i 1).val < 16 := (i 1).isLt
  have hi2 : (i 2).val < 16 := (i 2).isLt
  obtain ⟨t, ht⟩ := idx_onto ⟨(i 0).val, hi0⟩
  have ht' : win6_1.index t (0 : Fin 3) = (i 0).val := ht
  obtain ⟨e0, e1, e2, e3, e4, e5⟩ := idx_facts t
  refine ⟨t, flush6_1 t, ?_⟩
  rw [mem_blk]
  intro a
  match a with
  | ⟨0, _⟩ =>
    show win6_1.index t (0 : Fin 3) * 1 ≤ (i 0).val ∧ (i 0).val < win6_1.index t (0 : Fin 3) * 1 + 1
    omega
  | ⟨1, _⟩ =>
    show win6_1.index t (1 : Fin 3) * 16 ≤ (i 1).val ∧ (i 1).val < win6_1.index t (1 : Fin 3) * 16 + 16
    omega
  | ⟨2, _⟩ =>
    show win6_1.index t (2 : Fin 3) * 16 ≤ (i 2).val ∧ (i 2).val < win6_1.index t (2 : Fin 3) * 16 + 16
    omega

/-- The array region 6 leaves: the 2 x 2 window average of the array it finds. -/
theorem final (c : Dev nD) :
    (dat6 V c).arrAt 1 cfg6.N = poolCM (B := 18) (N := 32) (M := 32) (n := 16) (m := 16) rfl rfl (V c main_v17) :=
  (dat6 V c).arrAt_eq_of_cover 1 _ (fun t _ => flushed_eq V c t) cover

end Cert.KernelIdeal.Level6

end
-- ==== Proof.KernelRun.lean ====
import proofs.«168697_j16149077033155_1_alg».proof.Proof.Gen.KernelIdeal.Frame
import Idealize.ShloMosaic.Lib.StableHlo.Run

/-! # The run of the kernel program, with the fold of buffer contents read at the buffers that matter

run_named: every weakly fair execution of the program ends with every unscoped buffer at the last contents of the
fold of boundary contents (Gen.W15). Then the fold is read: each region's input array at its entry, and each
returned buffer at the end of the run, in terms of what the preceding region leaves in its output array. -/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program on the TensorCores, from any memory with zero counters, terminates,
    nothing faulting, and ends with every unscoped buffer of every core at the fold's last contents. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = Gen.W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-! ## Walking the fold back

A host stretch keeps every buffer none of its operations writes; a region keeps every buffer that is not one of its
arrays (the fold's own lemmas, the references told apart by deciding their inequality). The tactic below discharges a
stretch's step: the stretch's written buffers are read off its literal list of operations, and the references are told
apart by deciding their inequality. -/

/-- `after ops V b = V b` for a literal stretch `ops` none of whose operations writes the reference `b`. -/
macro "host_keep" : tactic =>
  `(tactic| exact StableHlo.after_of_forall_not_mem _ _ (List.forall_iff_forall_mem.mp (by
      simp only [hostOps0, hostOps1, hostOps2, hostOps3, hostOps4, hostOps5, hostOps6, hostOps7, List.Forall,
        StableHlo.unary_writes, StableHlo.reshape_writes, Finset.mem_singleton]
      repeat' apply And.intro
      all_goals exact StableHlo.devRef_ne_of_ne (by decide))))

/-! ## Region 0's input array: the first stretch applied to the launch memory -/

/-- Region 0 reads the argument transposed to channel-major order and its two leading axes merged. -/
theorem V1_in (c : Dev nD) : Gen.V1 m ρ c main_v1 = shapeCast S18x2048x2048 (transpose S6x3x2048x2048 [0, 3, 1, 2] (m ((c : Thread nD τ).loc main_arg0)) transposes_S6x2048x2048x3_S6x3x2048x2048_0_3_1_2) shapeCasts_S6x3x2048x2048_S18x2048x2048 := by
  dsimp only [Gen.V1, Gen.W1, Gen.W0, hostOps0]
  after_results
  rfl

/-! ## Each region's output array at its exit: what its write-backs leave -/

theorem W2_out (c : Dev nD) : Gen.W2 m ρ c (Proc.devRef .tc main_v2) = (Gen.dat0 (Gen.V1 m ρ) c).arrAt 1 cfg0.N :=
  Gen.W2_arr m ρ c 1

theorem W4_out (c : Dev nD) : Gen.W4 m ρ c (Proc.devRef .tc main_v5) = (Gen.dat1 (Gen.V3 m ρ) c).arrAt 1 cfg1.N :=
  Gen.W4_arr m ρ c 1

theorem W6_out (c : Dev nD) : Gen.W6 m ρ c (Proc.devRef .tc main_v8) = (Gen.dat2 (Gen.V5 m ρ) c).arrAt 1 cfg2.N :=
  Gen.W6_arr m ρ c 1

theorem W8_out (c : Dev nD) : Gen.W8 m ρ c (Proc.devRef .tc main_v11) = (Gen.dat3 (Gen.V7 m ρ) c).arrAt 1 cfg3.N :=
  Gen.W8_arr m ρ c 1

theorem W10_out (c : Dev nD) : Gen.W10 m ρ c (Proc.devRef .tc main_v14) = (Gen.dat4 (Gen.V9 m ρ) c).arrAt 1 cfg4.N :=
  Gen.W10_arr m ρ c 1

theorem W12_out (c : Dev nD) : Gen.W12 m ρ c (Proc.devRef .tc main_v17) = (Gen.dat5 (Gen.V11 m ρ) c).arrAt 1 cfg5.N :=
  Gen.W12_arr m ρ c 1

theorem W14_out (c : Dev nD) : Gen.W14 m ρ c (Proc.devRef .tc main_v20) = (Gen.dat6 (Gen.V13 m ρ) c).arrAt 1 cfg6.N :=
  Gen.W14_arr m ρ c 1

/-! ## Each later region's input array at its entry: the preceding region's output array, which the stretch between
    them does not write -/

theorem V3_in (c : Dev nD) : Gen.V3 m ρ c main_v2 = (Gen.dat0 (Gen.V1 m ρ) c).arrAt 1 cfg0.N :=
  (show Gen.W3 m ρ c (Proc.devRef .tc main_v2) = Gen.W2 m ρ c (Proc.devRef .tc main_v2) by host_keep).trans (W2_out m ρ c)

theorem V5_in (c : Dev nD) : Gen.V5 m ρ c main_v5 = (Gen.dat1 (Gen.V3 m ρ) c).arrAt 1 cfg1.N :=
  (show Gen.W5 m ρ c (Proc.devRef .tc main_v5) = Gen.W4 m ρ c (Proc.devRef .tc main_v5) by host_keep).trans (W4_out m ρ c)

theorem V7_in (c : Dev nD) : Gen.V7 m ρ c main_v8 = (Gen.dat2 (Gen.V5 m ρ) c).arrAt 1 cfg2.N :=
  (show Gen.W7 m ρ c (Proc.devRef .tc main_v8) = Gen.W6 m ρ c (Proc.devRef .tc main_v8) by host_keep).trans (W6_out m ρ c)

theorem V9_in (c : Dev nD) : Gen.V9 m ρ c main_v11 = (Gen.dat3 (Gen.V7 m ρ) c).arrAt 1 cfg3.N :=
  (show Gen.W9 m ρ c (Proc.devRef .tc main_v11) = Gen.W8 m ρ c (Proc.devRef .tc main_v11) by host_keep).trans (W8_out m ρ c)

theorem V11_in (c : Dev nD) : Gen.V11 m ρ c main_v14 = (Gen.dat4 (Gen.V9 m ρ) c).arrAt 1 cfg4.N :=
  (show Gen.W11 m ρ c (Proc.devRef .tc main_v14) = Gen.W10 m ρ c (Proc.devRef .tc main_v14) by host_keep).trans (W10_out m ρ c)

theorem V13_in (c : Dev nD) : Gen.V13 m ρ c main_v17 = (Gen.dat5 (Gen.V11 m ρ) c).arrAt 1 cfg5.N :=
  (show Gen.W13 m ρ c (Proc.devRef .tc main_v17) = Gen.W12 m ρ c (Proc.devRef .tc main_v17) by host_keep).trans (W12_out m ρ c)

/-! ## Each returned buffer just after the stretch that writes it: the preceding region's output array, its leading
    axis split and the channel axis moved last (for the last region this is already the end of the run) -/

theorem W3_v4 (c : Dev nD) : Gen.W3 m ρ c (Proc.devRef .tc main_v4) = transpose S6x1024x1024x3 [0, 2, 3, 1] (shapeCast S6x3x1024x1024 ((Gen.dat0 (Gen.V1 m ρ) c).arrAt 1 cfg0.N) shapeCasts_S18x1024x1024_S6x3x1024x1024) transposes_S6x3x1024x1024_S6x1024x1024x3_0_2_3_1 := by
  dsimp only [Gen.W3, hostOps1]
  after_results
  rw [W2_out]
  rfl

theorem W5_v7 (c : Dev nD) : Gen.W5 m ρ c (Proc.devRef .tc main_v7) = transpose S6x512x512x3 [0, 2, 3, 1] (shapeCast S6x3x512x512 ((Gen.dat1 (Gen.V3 m ρ) c).arrAt 1 cfg1.N) shapeCasts_S18x512x512_S6x3x512x512) transposes_S6x3x512x512_S6x512x512x3_0_2_3_1 := by
  dsimp only [Gen.W5, hostOps2]
  after_results
  rw [W4_out]
  rfl

theorem W7_v10 (c : Dev nD) : Gen.W7 m ρ c (Proc.devRef .tc main_v10) = transpose S6x256x256x3 [0, 2, 3, 1] (shapeCast S6x3x256x256 ((Gen.dat2 (Gen.V5 m ρ) c).arrAt 1 cfg2.N) shapeCasts_S18x256x256_S6x3x256x256) transposes_S6x3x256x256_S6x256x256x3_0_2_3_1 := by
  dsimp only [Gen.W7, hostOps3]
  after_results
  rw [W6_out]
  rfl

theorem W9_v13 (c : Dev nD) : Gen.W9 m ρ c (Proc.devRef .tc main_v13) = transpose S6x128x128x3 [0, 2, 3, 1] (shapeCast S6x3x128x128 ((Gen.dat3 (Gen.V7 m ρ) c).arrAt 1 cfg3.N) shapeCasts_S18x128x128_S6x3x128x128) transposes_S6x3x128x128_S6x128x128x3_0_2_3_1 := by
  dsimp only [Gen.W9, hostOps4]
  after_results
  rw [W8_out]
  rfl

theorem W11_v16 (c : Dev nD) : Gen.W11 m ρ c (Proc.devRef .tc main_v16) = transpose S6x64x64x3 [0, 2, 3, 1] (shapeCast S6x3x64x64 ((Gen.dat4 (Gen.V9 m ρ) c).arrAt 1 cfg4.N) shapeCasts_S18x64x64_S6x3x64x64) transposes_S6x3x64x64_S6x64x64x3_0_2_3_1 := by
  dsimp only [Gen.W11, hostOps5]
  after_results
  rw [W10_out]
  rfl

theorem W13_v19 (c : Dev nD) : Gen.W13 m ρ c (Proc.devRef .tc main_v19) = transpose S6x32x32x3 [0, 2, 3, 1] (shapeCast S6x3x32x32 ((Gen.dat5 (Gen.V11 m ρ) c).arrAt 1 cfg5.N) shapeCasts_S18x32x32_S6x3x32x32) transposes_S6x3x32x32_S6x32x32x3_0_2_3_1 := by
  dsimp only [Gen.W13, hostOps6]
  after_results
  rw [W12_out]
  rfl

theorem W15_v22 (c : Dev nD) : Gen.W15 m ρ c (Proc.devRef .tc main_v22) = transpose S6x16x16x3 [0, 2, 3, 1] (shapeCast S6x3x16x16 ((Gen.dat6 (Gen.V13 m ρ) c).arrAt 1 cfg6.N) shapeCasts_S18x16x16_S6x3x16x16) transposes_S6x3x16x16_S6x16x16x3_0_2_3_1 := by
  dsimp only [Gen.W15, hostOps7]
  after_results
  rw [W14_out]
  rfl

/-! ## Each returned buffer at the end of the run: no later stretch and no later region writes it -/

theorem W15_v4 (c : Dev nD) : Gen.W15 m ρ c (Proc.devRef .tc main_v4) = transpose S6x1024x1024x3 [0, 2, 3, 1] (shapeCast S6x3x1024x1024 ((Gen.dat0 (Gen.V1 m ρ) c).arrAt 1 cfg0.N) shapeCasts_S18x1024x1024_S6x3x1024x1024) transposes_S6x3x1024x1024_S6x1024x1024x3_0_2_3_1 :=
  calc Gen.W15 m ρ c (Proc.devRef .tc main_v4)
    _ = Gen.W14 m ρ c (Proc.devRef .tc main_v4) := by host_keep
    _ = Gen.W13 m ρ c (Proc.devRef .tc main_v4) := Gen.W14_of_ne m ρ c main_v4 (by decide)
    _ = Gen.W12 m ρ c (Proc.devRef .tc main_v4) := by host_keep
    _ = Gen.W11 m ρ c (Proc.devRef .tc main_v4) := Gen.W12_of_ne m ρ c main_v4 (by decide)
    _ = Gen.W10 m ρ c (Proc.devRef .tc main_v4) := by host_keep
    _ = Gen.W9 m ρ c (Proc.devRef .tc main_v4) := Gen.W10_of_ne m ρ c main_v4 (by decide)
    _ = Gen.W8 m ρ c (Proc.devRef .tc main_v4) := by host_keep
    _ = Gen.W7 m ρ c (Proc.devRef .tc main_v4) := Gen.W8_of_ne m ρ c main_v4 (by decide)
    _ = Gen.W6 m ρ c (Proc.devRef .tc main_v4) := by host_keep
    _ = Gen.W5 m ρ c (Proc.devRef .tc main_v4) := Gen.W6_of_ne m ρ c main_v4 (by decide)
    _ = Gen.W4 m ρ c (Proc.devRef .tc main_v4) := by host_keep
    _ = Gen.W3 m ρ c (Proc.devRef .tc main_v4) := Gen.W4_of_ne m ρ c main_v4 (by decide)
    _ = _ := W3_v4 m ρ c

theorem W15_v7 (c : Dev nD) : Gen.W15 m ρ c (Proc.devRef .tc main_v7) = transpose S6x512x512x3 [0, 2, 3, 1] (shapeCast S6x3x512x512 ((Gen.dat1 (Gen.V3 m ρ) c).arrAt 1 cfg1.N) shapeCasts_S18x512x512_S6x3x512x512) transposes_S6x3x512x512_S6x512x512x3_0_2_3_1 :=
  calc Gen.W15 m ρ c (Proc.devRef .tc main_v7)
    _ = Gen.W14 m ρ c (Proc.devRef .tc main_v7) := by host_keep
    _ = Gen.W13 m ρ c (Proc.devRef .tc main_v7) := Gen.W14_of_ne m ρ c main_v7 (by decide)
    _ = Gen.W12 m ρ c (Proc.devRef .tc main_v7) := by host_keep
    _ = Gen.W11 m ρ c (Proc.devRef .tc main_v7) := Gen.W12_of_ne m ρ c main_v7 (by decide)
    _ = Gen.W10 m ρ c (Proc.devRef .tc main_v7) := by host_keep
    _ = Gen.W9 m ρ c (Proc.devRef .tc main_v7) := Gen.W10_of_ne m ρ c main_v7 (by decide)
    _ = Gen.W8 m ρ c (Proc.devRef .tc main_v7) := by host_keep
    _ = Gen.W7 m ρ c (Proc.devRef .tc main_v7) := Gen.W8_of_ne m ρ c main_v7 (by decide)
    _ = Gen.W6 m ρ c (Proc.devRef .tc main_v7) := by host_keep
    _ = Gen.W5 m ρ c (Proc.devRef .tc main_v7) := Gen.W6_of_ne m ρ c main_v7 (by decide)
    _ = _ := W5_v7 m ρ c

theorem W15_v10 (c : Dev nD) : Gen.W15 m ρ c (Proc.devRef .tc main_v10) = transpose S6x256x256x3 [0, 2, 3, 1] (shapeCast S6x3x256x256 ((Gen.dat2 (Gen.V5 m ρ) c).arrAt 1 cfg2.N) shapeCasts_S18x256x256_S6x3x256x256) transposes_S6x3x256x256_S6x256x256x3_0_2_3_1 :=
  calc Gen.W15 m ρ c (Proc.devRef .tc main_v10)
    _ = Gen.W14 m ρ c (Proc.devRef .tc main_v10) := by host_keep
    _ = Gen.W13 m ρ c (Proc.devRef .tc main_v10) := Gen.W14_of_ne m ρ c main_v10 (by decide)
    _ = Gen.W12 m ρ c (Proc.devRef .tc main_v10) := by host_keep
    _ = Gen.W11 m ρ c (Proc.devRef .tc main_v10) := Gen.W12_of_ne m ρ c main_v10 (by decide)
    _ = Gen.W10 m ρ c (Proc.devRef .tc main_v10) := by host_keep
    _ = Gen.W9 m ρ c (Proc.devRef .tc main_v10) := Gen.W10_of_ne m ρ c main_v10 (by decide)
    _ = Gen.W8 m ρ c (Proc.devRef .tc main_v10) := by host_keep
    _ = Gen.W7 m ρ c (Proc.devRef .tc main_v10) := Gen.W8_of_ne m ρ c main_v10 (by decide)
    _ = _ := W7_v10 m ρ c

theorem W15_v13 (c : Dev nD) : Gen.W15 m ρ c (Proc.devRef .tc main_v13) = transpose S6x128x128x3 [0, 2, 3, 1] (shapeCast S6x3x128x128 ((Gen.dat3 (Gen.V7 m ρ) c).arrAt 1 cfg3.N) shapeCasts_S18x128x128_S6x3x128x128) transposes_S6x3x128x128_S6x128x128x3_0_2_3_1 :=
  calc Gen.W15 m ρ c (Proc.devRef .tc main_v13)
    _ = Gen.W14 m ρ c (Proc.devRef .tc main_v13) := by host_keep
    _ = Gen.W13 m ρ c (Proc.devRef .tc main_v13) := Gen.W14_of_ne m ρ c main_v13 (by decide)
    _ = Gen.W12 m ρ c (Proc.devRef .tc main_v13) := by host_keep
    _ = Gen.W11 m ρ c (Proc.devRef .tc main_v13) := Gen.W12_of_ne m ρ c main_v13 (by decide)
    _ = Gen.W10 m ρ c (Proc.devRef .tc main_v13) := by host_keep
    _ = Gen.W9 m ρ c (Proc.devRef .tc main_v13) := Gen.W10_of_ne m ρ c main_v13 (by decide)
    _ = _ := W9_v13 m ρ c

theorem W15_v16 (c : Dev nD) : Gen.W15 m ρ c (Proc.devRef .tc main_v16) = transpose S6x64x64x3 [0, 2, 3, 1] (shapeCast S6x3x64x64 ((Gen.dat4 (Gen.V9 m ρ) c).arrAt 1 cfg4.N) shapeCasts_S18x64x64_S6x3x64x64) transposes_S6x3x64x64_S6x64x64x3_0_2_3_1 :=
  calc Gen.W15 m ρ c (Proc.devRef .tc main_v16)
    _ = Gen.W14 m ρ c (Proc.devRef .tc main_v16) := by host_keep
    _ = Gen.W13 m ρ c (Proc.devRef .tc main_v16) := Gen.W14_of_ne m ρ c main_v16 (by decide)
    _ = Gen.W12 m ρ c (Proc.devRef .tc main_v16) := by host_keep
    _ = Gen.W11 m ρ c (Proc.devRef .tc main_v16) := Gen.W12_of_ne m ρ c main_v16 (by decide)
    _ = _ := W11_v16 m ρ c

theorem W15_v19 (c : Dev nD) : Gen.W15 m ρ c (Proc.devRef .tc main_v19) = transpose S6x32x32x3 [0, 2, 3, 1] (shapeCast S6x3x32x32 ((Gen.dat5 (Gen.V11 m ρ) c).arrAt 1 cfg5.N) shapeCasts_S18x32x32_S6x3x32x32) transposes_S6x3x32x32_S6x32x32x3_0_2_3_1 :=
  calc Gen.W15 m ρ c (Proc.devRef .tc main_v19)
    _ = Gen.W14 m ρ c (Proc.devRef .tc main_v19) := by host_keep
    _ = Gen.W13 m ρ c (Proc.devRef .tc main_v19) := Gen.W14_of_ne m ρ c main_v19 (by decide)
    _ = _ := W13_v19 m ρ c

end Cert.KernelIdeal.KRun

end
-- ==== Proof.Bridge.lean ====
import proofs.«168697_j16149077033155_1_alg».proof.Defs
import proofs.«168697_j16149077033155_1_alg».proof.Proof.Pool
import proofs.«168697_j16149077033155_1_alg».proof.Proof.Chain
import proofs.«168697_j16149077033155_1_alg».proof.Proof.Level0
import proofs.«168697_j16149077033155_1_alg».proof.Proof.Level1
import proofs.«168697_j16149077033155_1_alg».proof.Proof.Level2
import proofs.«168697_j16149077033155_1_alg».proof.Proof.Level3
import proofs.«168697_j16149077033155_1_alg».proof.Proof.Level4
import proofs.«168697_j16149077033155_1_alg».proof.Proof.Level5
import proofs.«168697_j16149077033155_1_alg».proof.Proof.Level6
import proofs.«168697_j16149077033155_1_alg».proof.Proof.KernelRun
import proofs.«168697_j16149077033155_1_alg».proof.Proof.Gen.ReferenceIdeal.Run

set_option maxRecDepth 16384

noncomputable section

/-! # The two programs end with the same arrays

The kernel program moves the argument to the channel-major layout, runs seven regions, each leaving the 2 x 2 window average of the array
it finds, and returns each level changed back to the channel-last layout; the reference averages the channel-last array seven times.
Level by level the kernel's arrays are the channel-major chain `cm j` of the argument, its results therefore the channel-last chain
`cl j`; the reference's results are `cl j` directly. -/

namespace Cert.Bridge

open Idealize.ShloMosaic Idealize.ShloMosaic.TcCoe Idealize.SL.Sem
open Cert.Pool Cert.Chain

/-! ## The kernel program -/

section Kernel

open Cert.KernelIdeal Cert.KernelIdeal.Gen

variable (m : (ℓ : Loc nD τ sig) → Buf (Elt Ideal) ℓ) (ρ : Dev nD → PrngReg)

/-- The argument array on a core. -/
abbrev base (c : Dev nD) : Base := m ((c : Thread nD τ).loc main_arg0)

/-- Region 0 finds the argument in the channel-major layout. -/
theorem in0 (c : Dev nD) : Gen.V1 m ρ c main_v1 = cm0 (base m c) := by
  rw [KRun.V1_in]; rfl

/-- Region 0 leaves level 1 of the channel-major chain. -/
theorem arr0 (c : Dev nD) : (Gen.dat0 (Gen.V1 m ρ) c).arrAt 1 cfg0.N = cm1 (base m c) := by
  rw [Level0.final, in0]; rfl
/-- Region 1 finds what region 0 left, and leaves level 2 of the channel-major chain. -/
theorem arr1 (c : Dev nD) : (Gen.dat1 (Gen.V3 m ρ) c).arrAt 1 cfg1.N = cm2 (base m c) := by
  rw [Level1.final, KRun.V3_in, arr0]; rfl
/-- Region 2 finds what region 1 left, and leaves level 3 of the channel-major chain. -/
theorem arr2 (c : Dev nD) : (Gen.dat2 (Gen.V5 m ρ) c).arrAt 1 cfg2.N = cm3 (base m c) := by
  rw [Level2.final, KRun.V5_in, arr1]; rfl
/-- Region 3 finds what region 2 left, and leaves level 4 of the channel-major chain. -/
theorem arr3 (c : Dev nD) : (Gen.dat3 (Gen.V7 m ρ) c).arrAt 1 cfg3.N = cm4 (base m c) := by
  rw [Level3.final, KRun.V7_in, arr2]; rfl
/-- Region 4 finds what region 3 left, and leaves level 5 of the channel-major chain. -/
theorem arr4 (c : Dev nD) : (Gen.dat4 (Gen.V9 m ρ) c).arrAt 1 cfg4.N = cm5 (base m c) := by
  rw [Level4.final, KRun.V9_in, arr3]; rfl
/-- Region 5 finds what region 4 left, and leaves level 6 of the channel-major chain. -/
theorem arr5 (c : Dev nD) : (Gen.dat5 (Gen.V11 m ρ) c).arrAt 1 cfg5.N = cm6 (base m c) := by
  rw [Level5.final, KRun.V11_in, arr4]; rfl
/-- Region 6 finds what region 5 left, and leaves level 7 of the channel-major chain. -/
theorem arr6 (c : Dev nD) : (Gen.dat6 (Gen.V13 m ρ) c).arrAt 1 cfg6.N = cm7 (base m c) := by
  rw [Level6.final, KRun.V13_in, arr5]; rfl
/-- Result 1 of the kernel program: level 1 changed to the channel-last layout, which is level 1 of the channel-last chain. -/
theorem res1 (c : Dev nD) : Gen.W15 m ρ c (Proc.devRef .tc main_v4) = cl1 (base m c) := by
  rw [KRun.W15_v4, arr0]; exact toCL_cm1 _ _ _
/-- Result 2 of the kernel program: level 2 changed to the channel-last layout, which is level 2 of the channel-last chain. -/
theorem res2 (c : Dev nD) : Gen.W15 m ρ c (Proc.devRef .tc main_v7) = cl2 (base m c) := by
  rw [KRun.W15_v7, arr1]; exact toCL_cm2 _ _ _
/-- Result 3 of the kernel program: level 3 changed to the channel-last layout, which is level 3 of the channel-last chain. -/
theorem res3 (c : Dev nD) : Gen.W15 m ρ c (Proc.devRef .tc main_v10) = cl3 (base m c) := by
  rw [KRun.W15_v10, arr2]; exact toCL_cm3 _ _ _
/-- Result 4 of the kernel program: level 4 changed to the channel-last layout, which is level 4 of the channel-last chain. -/
theorem res4 (c : Dev nD) : Gen.W15 m ρ c (Proc.devRef .tc main_v13) = cl4 (base m c) := by
  rw [KRun.W15_v13, arr3]; exact toCL_cm4 _ _ _
/-- Result 5 of the kernel program: level 5 changed to the channel-last layout, which is level 5 of the channel-last chain. -/
theorem res5 (c : Dev nD) : Gen.W15 m ρ c (Proc.devRef .tc main_v16) = cl5 (base m c) := by
  rw [KRun.W15_v16, arr4]; exact toCL_cm5 _ _ _
/-- Result 6 of the kernel program: level 6 changed to the channel-last layout, which is level 6 of the channel-last chain. -/
theorem res6 (c : Dev nD) : Gen.W15 m ρ c (Proc.devRef .tc main_v19) = cl6 (base m c) := by
  rw [KRun.W15_v19, arr5]; exact toCL_cm6 _ _ _
/-- Result 7 of the kernel program: level 7 changed to the channel-last layout, which is level 7 of the channel-last chain. -/
theorem res7 (c : Dev nD) : Gen.W15 m ρ c (Proc.devRef .tc main_v22) = cl7 (base m c) := by
  rw [KRun.W15_v22, arr6]; exact toCL_cm7 _ _ _

/-- Every weakly fair execution of the kernel program ends with its eight results at the argument and the seven levels of the
    channel-last chain of the argument, the argument unchanged. -/
theorem kernel_run : θ_run (defs (F := Ideal)) (onTc (τ := τ) (main (F := Ideal))) ⟨m, fun _ => 0, ρ⟩ (fun r => ∀ c : Dev nD,
      r.2.mem ((c.tc : Thread nD τ).loc main_arg0) = base m c
      ∧ r.2.mem ((c.tc : Thread nD τ).loc main_v4) = cl1 (base m c)
      ∧ r.2.mem ((c.tc : Thread nD τ).loc main_v7) = cl2 (base m c)
      ∧ r.2.mem ((c.tc : Thread nD τ).loc main_v10) = cl3 (base m c)
      ∧ r.2.mem ((c.tc : Thread nD τ).loc main_v13) = cl4 (base m c)
      ∧ r.2.mem ((c.tc : Thread nD τ).loc main_v16) = cl5 (base m c)
      ∧ r.2.mem ((c.tc : Thread nD τ).loc main_v19) = cl6 (base m c)
      ∧ r.2.mem ((c.tc : Thread nD τ).loc main_v22) = cl7 (base m c)
      ∧ r.2.mem ((c.tc : Thread nD τ).loc main_arg0) = m ((c.tc : Thread nD τ).loc main_arg0)) :=
  (θ_run (defs (F := Ideal)) _ _).mono (fun r h c =>
    ⟨(h c _ (mem_uc main_arg0 (by decide))).trans (W15_main_arg0 m ρ c),
     (h c _ (mem_uc main_v4 (by decide))).trans (res1 m ρ c),
     (h c _ (mem_uc main_v7 (by decide))).trans (res2 m ρ c),
     (h c _ (mem_uc main_v10 (by decide))).trans (res3 m ρ c),
     (h c _ (mem_uc main_v13 (by decide))).trans (res4 m ρ c),
     (h c _ (mem_uc main_v16 (by decide))).trans (res5 m ρ c),
     (h c _ (mem_uc main_v19 (by decide))).trans (res6 m ρ c),
     (h c _ (mem_uc main_v22 (by decide))).trans (res7 m ρ c),
     (h c _ (mem_uc main_arg0 (by decide))).trans (W15_main_arg0 m ρ c)⟩)
    (KRun.run_named m ρ)

end Kernel

/-! ## The reference program -/

section Reference

open Cert.ReferenceIdeal Cert.ReferenceIdeal.Gen

variable (m : (ℓ : Loc nD τ sig) → Buf (Elt Ideal) ℓ) (ρ : Dev nD → PrngReg)

/-- Every weakly fair execution of the reference ends with its eight results at the argument and the seven levels of the channel-last
    chain of the argument, the argument unchanged: each of its stages is the window average of the stage before. -/
theorem reference_run : θ_run (defs (F := Ideal)) (onTc (τ := τ) (main (F := Ideal))) ⟨m, fun _ => 0, ρ⟩ (fun r => ∀ c : Dev nD,
      r.2.mem ((c.tc : Thread nD τ).loc main_arg0) = (m ((c.tc : Thread nD τ).loc main_arg0) : Base)
      ∧ r.2.mem ((c.tc : Thread nD τ).loc main_v3) = cl1 (m ((c.tc : Thread nD τ).loc main_arg0) : Base)
      ∧ r.2.mem ((c.tc : Thread nD τ).loc main_v7) = cl2 (m ((c.tc : Thread nD τ).loc main_arg0) : Base)
      ∧ r.2.mem ((c.tc : Thread nD τ).loc main_v11) = cl3 (m ((c.tc : Thread nD τ).loc main_arg0) : Base)
      ∧ r.2.mem ((c.tc : Thread nD τ).loc main_v15) = cl4 (m ((c.tc : Thread nD τ).loc main_arg0) : Base)
      ∧ r.2.mem ((c.tc : Thread nD τ).loc main_v19) = cl5 (m ((c.tc : Thread nD τ).loc main_arg0) : Base)
      ∧ r.2.mem ((c.tc : Thread nD τ).loc main_v23) = cl6 (m ((c.tc : Thread nD τ).loc main_arg0) : Base)
      ∧ r.2.mem ((c.tc : Thread nD τ).loc main_v27) = cl7 (m ((c.tc : Thread nD τ).loc main_arg0) : Base)
      ∧ r.2.mem ((c.tc : Thread nD τ).loc main_arg0) = m ((c.tc : Thread nD τ).loc main_arg0)) := by
  refine (θ_run (defs (F := Ideal)) _ _).mono (fun r h c => ?_) (Cert.ReferenceIdeal.Value.run (F := Ideal) m ρ)
  obtain ⟨h0, h1, h2, h3, h4, h5, h6, h7, h8⟩ := h c
  generalize m ((c.tc : Thread nD τ).loc main_arg0) = b at *
  have e1 : _ = cl1 b :=
    reference_stage (N := 2048) (M := 2048) (n := 1024) (m := 1024) rfl rfl b
      shapeCasts_S6x2048x2048x3_S6x1024x2x1024x2x3 reducesTo_S6x1024x2x1024x2x3_S6x1024x1024x3_d2_4 h_S_ bcast_S_S6x1024x1024x3
  have e2 : _ = cl2 b :=
    (reference_stage (N := 1024) (M := 1024) (n := 512) (m := 512) rfl rfl _
      shapeCasts_S6x1024x1024x3_S6x512x2x512x2x3 reducesTo_S6x512x2x512x2x3_S6x512x512x3_d2_4 h_S_ bcast_S_S6x512x512x3).trans
      (congrArg (poolCL (B := 6) (N := 1024) (M := 1024) (C := 3) (n := 512) (m := 512) rfl rfl) e1)
  have e3 : _ = cl3 b :=
    (reference_stage (N := 512) (M := 512) (n := 256) (m := 256) rfl rfl _
      shapeCasts_S6x512x512x3_S6x256x2x256x2x3 reducesTo_S6x256x2x256x2x3_S6x256x256x3_d2_4 h_S_ bcast_S_S6x256x256x3).trans
      (congrArg (poolCL (B := 6) (N := 512) (M := 512) (C := 3) (n := 256) (m := 256) rfl rfl) e2)
  have e4 : _ = cl4 b :=
    (reference_stage (N := 256) (M := 256) (n := 128) (m := 128) rfl rfl _
      shapeCasts_S6x256x256x3_S6x128x2x128x2x3 reducesTo_S6x128x2x128x2x3_S6x128x128x3_d2_4 h_S_ bcast_S_S6x128x128x3).trans
      (congrArg (poolCL (B := 6) (N := 256) (M := 256) (C := 3) (n := 128) (m := 128) rfl rfl) e3)
  have e5 : _ = cl5 b :=
    (reference_stage (N := 128) (M := 128) (n := 64) (m := 64) rfl rfl _
      shapeCasts_S6x128x128x3_S6x64x2x64x2x3 reducesTo_S6x64x2x64x2x3_S6x64x64x3_d2_4 h_S_ bcast_S_S6x64x64x3).trans
      (congrArg (poolCL (B := 6) (N := 128) (M := 128) (C := 3) (n := 64) (m := 64) rfl rfl) e4)
  have e6 : _ = cl6 b :=
    (reference_stage (N := 64) (M := 64) (n := 32) (m := 32) rfl rfl _
      shapeCasts_S6x64x64x3_S6x32x2x32x2x3 reducesTo_S6x32x2x32x2x3_S6x32x32x3_d2_4 h_S_ bcast_S_S6x32x32x3).trans
      (congrArg (poolCL (B := 6) (N := 64) (M := 64) (C := 3) (n := 32) (m := 32) rfl rfl) e5)
  have e7 : _ = cl7 b :=
    (reference_stage (N := 32) (M := 32) (n := 16) (m := 16) rfl rfl _
      shapeCasts_S6x32x32x3_S6x16x2x16x2x3 reducesTo_S6x16x2x16x2x3_S6x16x16x3_d2_4 h_S_ bcast_S_S6x16x16x3).trans
      (congrArg (poolCL (B := 6) (N := 32) (M := 32) (C := 3) (n := 16) (m := 16) rfl rfl) e6)
  exact ⟨h0, h1.trans e1, h2.trans e2, h3.trans e3, h4.trans e4, h5.trans e5, h6.trans e6, h7.trans e7, h8⟩

end Reference

end Cert.Bridge

end
-- ==== Proof.lean ====
/-
  A cubemap mip chain: from six faces of 2048 x 2048 texels with three channels, seven levels of 2 x 2 window averages (1024, 512, …, 16),
  returned with the argument. The kernel program computes each level in a Pallas region on a channel-major copy [18, H, H] of the running
  array and changes each level back to the channel-last layout; the jnp reference averages the channel-last array directly. Both spell a
  level the same way: regroup rows and columns in pairs, add over the two pair axes from zero, divide by the literal 4.0. So at the exact
  (extended-real) reading the two programs return the same eight arrays: averaging commutes with the change of layout (a window lies in
  one face and one channel), and level by level the two chains coincide. Only re-indexing of four-term sums is used; finiteness of the
  argument is never needed. The idealized kernel is the kernel's own text (no rewrite was applied), so `preserves` is trivial.

  Proof/Pool.lean   the window average in both layouts; the two programs' spellings of one level; the change of layout
  Proof/Chain.lean  the seven levels in both layouts coincide
  Proof/Level0.lean … Level6.lean   what each region leaves: the window average of the array it finds (its blocks cover the result)
  Proof/KernelRun.lean   the kernel program's run, and the contents of each region's input and of each result at the end
  Proof/Bridge.lean  both runs restated over the same chain
-/
import proofs.«168697_j16149077033155_1_alg».proof.Defs
import proofs.«168697_j16149077033155_1_alg».proof.Proof.Gen.Kernel
import proofs.«168697_j16149077033155_1_alg».proof.Proof.Gen.Kernel.Frame
import proofs.«168697_j16149077033155_1_alg».proof.Proof.Gen.KernelIdeal
import proofs.«168697_j16149077033155_1_alg».proof.Proof.Gen.KernelIdeal.Frame
import proofs.«168697_j16149077033155_1_alg».proof.Proof.Gen.ReferenceIdeal
import proofs.«168697_j16149077033155_1_alg».proof.Proof.Gen.ReferenceIdeal.Run
import proofs.«168697_j16149077033155_1_alg».proof.Proof.Gen.Pre_finite_inputs
import proofs.«168697_j16149077033155_1_alg».proof.Proof.Bridge

noncomputable section

namespace Cert.Proof

open Idealize.ShloMosaic Idealize.SL.Sem

/-- The kernel program runs and leaves its argument as launched. -/
theorem frame_kernel : Cert.frame_Kernel := fun m ρ _ => Cert.Kernel.Gen.frame m ρ

/-- So does its exact reading. -/
theorem frame_kernelIdeal : Cert.frame_KernelIdeal := fun m ρ _ => Cert.KernelIdeal.Gen.frame m ρ

/-- So does the reference: its run with the results dropped. -/
theorem frame_referenceIdeal : Cert.frame_ReferenceIdeal := fun m ρ _ =>
  (θ_run Cert.ReferenceIdeal.defs _ _).mono (fun _ h c => (h c).2.2.2.2.2.2.2.2)
    (Cert.ReferenceIdeal.Value.run (F := Ideal) m ρ)

/-- No operation of the kernel was rewritten for the exact reading. -/
theorem preserves : Cert.preserves_Kernel_KernelIdeal := trivial

/-- From memories agreeing on the argument, both programs end with the argument and the seven levels of the channel-last chain of
    the argument. -/
theorem algebraic : Cert.algebraic_KernelIdeal_ReferenceIdeal := by
  intro m ρ m' ρ' _ hagree
  refine ⟨fun c => Cert.Bridge.base m c, fun c => Cert.Chain.cl1 (Cert.Bridge.base m c), fun c => Cert.Chain.cl2 (Cert.Bridge.base m c),
    fun c => Cert.Chain.cl3 (Cert.Bridge.base m c), fun c => Cert.Chain.cl4 (Cert.Bridge.base m c), fun c => Cert.Chain.cl5 (Cert.Bridge.base m c),
    fun c => Cert.Chain.cl6 (Cert.Bridge.base m c), fun c => Cert.Chain.cl7 (Cert.Bridge.base m c), Cert.Bridge.kernel_run m ρ, ?_⟩
  refine (θ_run Cert.ReferenceIdeal.defs _ _).mono (fun r h c => ?_) (Cert.Bridge.reference_run m' ρ')
  have e := hagree c
  obtain ⟨h0, h1, h2, h3, h4, h5, h6, h7, h8⟩ := h c
  rw [e] at h0 h1 h2 h3 h4 h5 h6 h7
  exact ⟨h0, h1, h2, h3, h4, h5, h6, h7, h8⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
